-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S_ : Shape := ⟨0, ![]⟩
abbrev S2048x1 : Shape := ⟨2, ![2048, 1]⟩
abbrev S1x2048 : Shape := ⟨2, ![1, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S2048 : Shape := ⟨1, ![2048]⟩

abbrev nBuf : Space → Nat
  | .hbm => 16
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2048x1, .f32⟩
  | .hbm, ⟨8, _⟩ => ⟨S1x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1, .f32⟩
  | .local _ .vmem, ⟨6, _⟩ => ⟨S512x1, .f32⟩
  | .local _ .vmem, ⟨7, _⟩ => ⟨S1x2048, .f32⟩
  | .local _ .vmem, ⟨8, _⟩ => ⟨S1x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S2048x1024 : S_.BroadcastsInDim S2048x1024 (![] : Fin 0 → Fin S2048x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x2048_S512 : S512x2048.Reduces [1] S512
  shapeCasts_S512_S512x1 : S512.ShapeCasts S512x1
  reduces_S512x1024_S512 : S512x1024.Reduces [1] S512
  inb_S512x1_S512x1_0_0 : ∀ a, (![0, 0] : Fin 2 → Nat) a + S512x1.size a ≤ S512x1.size a
  h_S512x1 : 0 < S512x1.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S2048 : S512x2048.Reduces [0] S2048
  shapeCasts_S2048_S1x2048 : S2048.ShapeCasts S1x2048
  shapeCasts_S2048x1_S2048 : S2048x1.ShapeCasts S2048
  shapeCasts_S1x2048_S2048 : S1x2048.ShapeCasts S2048
  reducesTo_S2048_S_d0 : S2048.ReducesTo [0] S_
  h_S_ : 0 < S_.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .bf16 = 32 ∨ (Rect.block (s := S2048x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x1 : Shape := ⟨2, ![2048, 1]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S2048 : Shape := ⟨1, ![2048]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1, .f32⟩
  | .hbm, ⟨3, _⟩ => ⟨S2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | .local _ .vmem, ⟨6, _⟩ => ⟨S512x1, .f32⟩
  | .local _ .vmem, ⟨7, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  reduces_S512x1024_S512 : S512x1024.Reduces [1] S512
  shapeCasts_S512_S512x1 : S512.ShapeCasts S512x1
  reduces_S512x2048_S512 : S512x2048.Reduces [1] S512
  broadcasts_S512x1_S512x2048 : S512x1.Broadcasts S512x2048
  inb_S512x1_S512x1_0_0 : ∀ a, (![0, 0] : Fin 2 → Nat) a + S512x1.size a ≤ S512x1.size a
  h_S512x1 : 0 < S512x1.numel
  shapeCasts_S2048x1_S2048 : S2048x1.ShapeCasts S2048
  reducesTo_S2048_S_d0 : S2048.ReducesTo [0] S_
  h_S_ : 0 < S_.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.LibWholeStore.lean ====
/-
  A buffer after a last store that covers its whole shape.

  When the last of a run of stores through a view writes the whole shape at offset zero, the buffer reads back as that
  store's payload, whatever was stored before and whatever the buffer held at first.  A load of the whole shape reads
  the contents themselves.  Stated for any view, element type and value type.
-/
import Idealize.ShloMosaic.Lib.Pipeline.FrameBody
import Idealize.ShloMosaic.Lib.Pipeline.Value

namespace Idealize.ShloMosaic.View

variable {sig : RefSig} {κ : Kind} {sp : Space} {S : Shape} {e : EltTy} {Val : EltTy → Type}

/-- After stores of which the last covers the whole shape, the buffer reads as that store's payload. -/
theorem read_writes_whole_last [∀ e, Nonempty (Val e)] (v : View sig κ sp S e) (f : v.ty.Contents Val)
    {off : Fin S.rank → Nat} (h : off = fun _ => 0) (inb : ∀ a, off a + S.size a ≤ S.size a) (w : S.Idx → Val e)
    (L : List (Piece Val S e)) :
    v.read Val (v.writes Val f ((⟨Rect.unit off S.size inb, w⟩ : Piece Val S e) :: L)) = w := by
  rw [read_writes_eq_canon v f _ (fun y => ⟨_, List.mem_cons_self, mem_set_unit_zero h inb y⟩),
    canon_cons_unit_zero h inb]

/-- The zero offsets of a rank-2 shape, however spelt. -/
theorem zero2 : (![0, 0] : Fin 2 → Nat) = fun _ => 0 := by
  funext a; fin_cases a <;> rfl

/-- The zero offsets of a rank-3 shape. -/
theorem zero3 : (![0, 0, 0] : Fin 3 → Nat) = fun _ => 0 := by
  funext a; fin_cases a <;> rfl

end Idealize.ShloMosaic.View
-- ==== Proof.BitsBody.lean ====
/-
  The loss kernel's body at one grid point, run on whole staging buffers.

  The body loads a block of 512 rows of the scaled first table (x0), the same rows of the second table (x1) and the
  whole second table (x2); it stores the rows' part of the loss into its first output, adds the block's column sums
  of exponentials onto a scratch row that it zeroes at the first point, and at the last point stores half the
  logarithm of the scratch row into its second output. Three cases, by the point: the first (scratch zeroed first),
  a middle one, the last (second output stored). Each store covers its whole buffer, so afterwards the buffer reads
  as the stored value; a load of a whole buffer reads its contents.
-/
import proofs.«152175_g2000206405548727_pallasbulk_867_2_alg».proof.Proof.Gen.Kernel.Launch
import proofs.«152175_g2000206405548727_pallasbulk_867_2_alg».proof.Proof.Gen.Kernel.Skeleton
import proofs.«152175_g2000206405548727_pallasbulk_867_2_alg».proof.Proof.Gen.Kernel.Points
import proofs.«152175_g2000206405548727_pallasbulk_867_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-- The first branch is taken exactly when the grid coordinate is 0. -/
abbrev condInit (i : grid0.Coords) : Prop := (Scalar.cmpi .ne (Scalar.extui (Scalar.cmpi .eq (BitVec.ofNat 32 (i 0).val) 0#32)) 0#32) = 1#1
/-- The second branch is taken exactly when the grid coordinate is 3. -/
abbrev condFin (i : grid0.Coords) : Prop := k0_cond2 i = 1#1

/-- A load of a whole buffer through the zero-offset rectangle reads what the buffer holds. -/
theorem readAt_whole {S : Shape} {e : EltTy} (a : Memref sig .tc .vmem S e) (ha : a.IsWhole) {off : Fin S.rank → Nat}
    (h : off = fun _ => 0) (inb : ∀ x, off x + S.size x ≤ S.size x) (X : Vec F S e) :
    View.readAt (Elt F) a.view (Rect.unit off S.size inb).toLoadRect (ha.unread X) = X := by
  rw [View.readAt_eq_ld, ha.read_unread]; exact View.ld_unit_zero h inb X

set_option maxHeartbeats 1000000 in
/-- A middle point: neither branch. The scratch row gains the block's column sums; the second output is handed back as found. -/
theorem runB (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : ¬condInit i) (hc2 : ¬condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi5 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare xi5
            ∗ owns (c : Thread nD τ) arg6 fullShare (k0_pay6 x0 x2 xs)) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2
  obtain rfl := harg5.eq_unread hf5; obtain rfl := harg6.eq_unread hf6
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr; · ipureintro; exact hf5
    iexact H5
  iexists _; isplitr
  swap; · iexact H6
  ipureintro
  (try sl_unfold_words)
  rw [View.read_writes_whole_last _ _ View.zero2, readAt_whole arg1 harg1 View.zero2, readAt_whole arg3 harg3 View.zero2,
    readAt_whole arg6 harg6 View.zero2]

set_option maxHeartbeats 1000000 in
/-- The first point: the scratch row is zeroed, then gains the block's column sums; the second output is handed back as found. -/
theorem runA (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : condInit i) (hc2 : ¬condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi5 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare xi5
            ∗ owns (c : Thread nD τ) arg6 fullShare (k0_pay6 x0 x2 (k0_pay5 (F := F)))) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  obtain rfl := harg1.eq_unread hf0; obtain rfl := harg2.eq_unread hf1; obtain rfl := harg3.eq_unread hf2
  obtain rfl := harg5.eq_unread hf5
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr; · ipureintro; exact hf5
    iexact H5
  iexists _; isplitr
  swap; · iexact H6
  ipureintro
  (try sl_unfold_words)
  rw [View.read_writes_whole_last _ _ View.zero2, readAt_whole arg1 harg1 View.zero2, readAt_whole arg3 harg3 View.zero2,
    View.readCov_unit_zero arg6.view View.zero2]

set_option maxHeartbeats 1000000 in
/-- The last point: the scratch row gains the block's column sums, and half its logarithm is stored into the second output. -/
theorem runC (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : ¬condInit i) (hc2 : condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare (k0_pay1 (k0_pay6 x0 x2 xs))
            ∗ owns (c : Thread nD τ) arg6 fullShare (k0_pay6 x0 x2 xs)) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2
  obtain rfl := harg6.eq_unread hf6
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr
    swap; · iexact H5
    ipureintro
    (try sl_unfold_words)
    rw [View.read_writes_whole_last _ _ View.zero2, View.readCov_unit_zero arg6.view View.zero2, readAt_whole arg1 harg1 View.zero2,
      readAt_whole arg3 harg3 View.zero2, readAt_whole arg6 harg6 View.zero2]
  iexists _; isplitr
  swap; · iexact H6
  ipureintro
  (try sl_unfold_words)
  rw [View.read_writes_whole_last _ _ View.zero2, readAt_whole arg1 harg1 View.zero2, readAt_whole arg3 harg3 View.zero2,
    readAt_whole arg6 harg6 View.zero2]

end Cert.Kernel.Body

end
-- ==== Proof.BitsData.lean ====
/-
  The loss kernel's pipeline: what every staging buffer holds after the body at every grid point.

  Four points, one per block of 512 rows. After point t the first output's buffer holds the rows' part of the loss
  computed from that point's blocks; the scratch row holds the column sums of exponentials of blocks 0 … t, added in
  that order onto a zero (by recursion on the point); the second output's buffer is written at the last point only,
  with half the logarithm of the scratch row. The second table reaches the kernel through two windows (a row block
  and the whole table): the two windows hold the left and the right half of that array's share.
-/
import proofs.«152175_g2000206405548727_pallasbulk_867_2_alg».proof.Proof.BitsBody

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions and the idle points, decided over the four points -/

theorem hcondInit : ∀ t : Fin cfg0.N, condInit (grid0.coords t) ↔ t.val = 0 :=
  (by decide +kernel : ∀ t : Fin grid0.N, condInit (grid0.coords t) ↔ t.val = 0)
theorem hcondFin : ∀ t : Fin cfg0.N, condFin (grid0.coords t) ↔ t.val = 3 :=
  (by decide +kernel : ∀ t : Fin grid0.N, condFin (grid0.coords t) ↔ t.val = 3)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, t.val ≠ 3 → cfg0.idle 4 (grid0.coords t) = true := by decide +kernel
theorem noFlush0_4 : ∀ t : Fin cfg0.N, t.val ≠ 3 → (cfg0.win 4).flush t = false := by decide +kernel
theorem liveAt0_4 : ∀ t : Fin cfg0.N, t.val = 3 → cfg0.idle 4 (grid0.coords t) = false := by decide +kernel

/-! ## The staging memrefs at a point, and the scratch row -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
/-- The scratch row: a whole scoped buffer of the kernel's own. -/
abbrev scM : Memref sig .tc .vmem S1x2048 .f32 := Memref.whole cc0_scratch0

/-- The region's own invariant: the scratch row at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch row after points 0 … n: block n's column sums added onto what the points before left, a zero row
    before the first. -/
def acc (c : Dev nD) : (n : ℕ) → n < cfg0.N → Vec F S1x2048 .f32
  | 0, h => k0_pay6 (iblk m c 0 ⟨0, h⟩) (iblk m c 2 ⟨0, h⟩) (k0_pay5 (F := F))
  | n + 1, h => k0_pay6 (iblk m c 0 ⟨n + 1, h⟩) (iblk m c 2 ⟨n + 1, h⟩) (acc c n (Nat.lt_of_succ_lt h))

theorem acc_zero (c : Dev nD) (t : Fin cfg0.N) (h0 : t.val = 0) :
    acc m c t.val t.isLt = k0_pay6 (iblk m c 0 t) (iblk m c 2 t) (k0_pay5 (F := F)) := by
  obtain ⟨n, hn⟩ := t; cases n with
  | zero => rfl
  | succ n => exact absurd h0 (Nat.succ_ne_zero n)

theorem acc_pos (c : Dev nD) (t : Fin cfg0.N) (h0 : t.val ≠ 0) :
    acc m c t.val t.isLt = k0_pay6 (iblk m c 0 t) (iblk m c 2 t) (acc m c (t.val - 1) (by have := t.isLt; omega)) := by
  obtain ⟨n, hn⟩ := t; cases n with
  | zero => exact absurd rfl h0
  | succ n => rfl

/-- The invariant between points: before the first the region's own; after point n the scratch row at acc n. -/
def PhiS (c : Dev nD) : (n : ℕ) → n ≤ cfg0.N → sProp 𝕄
  | 0, _ => Pipeline.ΦA spec0 c
  | n + 1, h => iprop(iprop(owns (c : Thread nD τ) scM fullShare (acc m c n h)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (iblk m c 0 t) (iblk m c 1 t) (iblk m c 2 t)
    | ⟨4, _⟩ => k0_pay1 (acc m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay4 (iblk m c 0 t) (iblk m c 1 t) (iblk m c 2 t) := by dsimp only [dats]
theorem after0_4 (c : Dev nD) (t : Fin cfg0.N) : (dats m 0 c).after 4 t = k0_pay1 (acc m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

end Cert.Kernel.Body

end
-- ==== Proof.BitsOblig.lean ====
/-
  The body obligation of the loss kernel's pipeline: at every grid point, from the invariant before the point and the
  staging buffers at what the pipeline hands the body, the body runs to the invariant after the point and the buffers
  at what the proof data names. By cases on the point: the first (the scratch row at anything, zeroed by the body),
  a middle one (the scratch row at what the point before left), the last (the second output stored).
-/
import proofs.«152175_g2000206405548727_pallasbulk_867_2_alg».proof.Proof.BitsData

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · -- the first point
    rw [Dat.leavesExact_idle (dats m 0 c) 4 t (idleAt0_4 t (by omega)) (noFlush0_4 t (by omega))]
    rw [acc_zero m c t h0, PhiS_castSucc m c t, PhiS_zero m c _ _ h0, PhiA0_eq]
    iintro ⟨⟨HS, Hg⟩, Ho, ⟨%d0, H0⟩, ⟨%d1, H1⟩, ⟨%d2, H2⟩, ⟨%d3, H3⟩, ⟨%d4, H4⟩⟩
    iapply (runA c (grid0.coords t) (ms0_0 t) (hs0_0 t) (ms0_1 t) (hs0_1 t) (ms0_2 t) (hs0_2 t) (ms0_3 t) (hs0_3 t) (ms0_4 t) (hs0_4 t) scM (Memref.isWhole_whole _)
      ((hcondInit t).mpr h0) (fun h => by have := (hcondFin t).mp h; omega) (iblk m c 0 t) (iblk m c 1 t) (iblk m c 2 t) ((dats m 0 c).before 4 t d4) (k0_pay5 (F := F)) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4
  · by_cases h3 : t.val = 3
    · -- the last point
      rw [show (dats m 0 c).leavesExact 4 t = owns (c : Thread nD τ) (ms0_4 t) fullShare ((dats m 0 c).after 4 t) from by
        unfold Dat.leavesExact; rw [liveAt0_4 t h3], after0_4]
      rw [acc_pos m c t h0, PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply (runC c (grid0.coords t) (ms0_0 t) (hs0_0 t) (ms0_1 t) (hs0_1 t) (ms0_2 t) (hs0_2 t) (ms0_3 t) (hs0_3 t) (ms0_4 t) (hs0_4 t) scM (Memref.isWhole_whole _)
      (fun h => h0 ((hcondInit t).mp h)) ((hcondFin t).mpr h3) (iblk m c 0 t) (iblk m c 1 t) (iblk m c 2 t) (k0_pay5 (F := F)) (acc m c (t.val - 1) (by omega)) Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle point
      rw [Dat.leavesExact_idle (dats m 0 c) 4 t (idleAt0_4 t h3) (noFlush0_4 t h3)]
      rw [acc_pos m c t h0, PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply (runB c (grid0.coords t) (ms0_0 t) (hs0_0 t) (ms0_1 t) (hs0_1 t) (ms0_2 t) (hs0_2 t) (ms0_3 t) (hs0_3 t) (ms0_4 t) (hs0_4 t) scM (Memref.isWhole_whole _)
      (fun h => h0 ((hcondInit t).mp h)) (fun h => h3 ((hcondFin t).mp h)) (iblk m c 0 t) (iblk m c 1 t) (iblk m c 2 t) ((dats m 0 c).before 4 t d4) (acc m c (t.val - 1) (by omega)) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch row holds is forgotten. -/
theorem hout (c : Dev nD) : (dats m 0 c).Φ (Fin.last cfg0.N) ⊢ Pipeline.ΦA spec0 c := by
  have hl : (Fin.last cfg0.N).val ≠ 0 := by rw [Fin.val_last]; have : cfg0.N = 4 := N_0; omega
  rw [show (dats m 0 c).Φ (Fin.last cfg0.N) = PhiS m c (Fin.last cfg0.N).val (Nat.le_of_lt_succ (Fin.last cfg0.N).isLt) from rfl,
    PhiS_pos m c _ _ hl, PhiA0_eq]
  iintro ⟨HS, Hg⟩
  isplitl [HS]
  · iexists _; iexact HS
  iexact Hg

end Cert.Kernel.Body

end
-- ==== Proof.BitsArrays.lean ====
/-
  The kernel's windows and the buffers behind them.

  Five windows look at four buffers: the scaled first table, the second table (through TWO windows: a block of rows and
  the whole table), and the two outputs. The pipeline holds one points-to per window; the two windows on the second
  table hold the left and the right half of its share. Held together at the same contents, the halves are the whole
  buffer again. So the four buffers, each whole, are exactly the five windows' arrays, in both directions.
-/
import proofs.«152175_g2000206405548727_pallasbulk_867_2_alg».proof.Proof.BitsOblig

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrRefs_eq : Finset.univ.image (Pipeline.arrRef (spec0)) = [main_v2, main_v3, main_v4_0, main_v4_1].toFinset := by decide

theorem share0 (c : Dev nD) : (dats m 0 c).share 0 = fullShare := by unfold Dat.share; rfl
theorem share1 (c : Dev nD) : (dats m 0 c).share 1 = fullShare.left := by unfold Dat.share; rfl
theorem share2 (c : Dev nD) : (dats m 0 c).share 2 = fullShare.right := by unfold Dat.share; rfl
theorem share3 (c : Dev nD) : (dats m 0 c).share 3 = fullShare := by unfold Dat.share; rfl
theorem share4 (c : Dev nD) : (dats m 0 c).share 4 = fullShare := by unfold Dat.share; rfl

theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem arrays_chain (c : Dev nD) (G : (w : Fin cfg0.W) → Buf (Elt F) ((cfg0.win w).arr.view.loc (c.tc : Thread nD τ))) :
    (dats m 0 c).arrays G = iprop((((c.tc : Thread nD τ).loc (Pipeline.arrRef spec0 0)) ↦{fullShare} G 0)
      ∗ (((c.tc : Thread nD τ).loc (Pipeline.arrRef spec0 1)) ↦{fullShare.left} G 1)
      ∗ (((c.tc : Thread nD τ).loc (Pipeline.arrRef spec0 2)) ↦{fullShare.right} G 2)
      ∗ (((c.tc : Thread nD τ).loc (Pipeline.arrRef spec0 3)) ↦{fullShare} G 3)
      ∗ (((c.tc : Thread nD τ).loc (Pipeline.arrRef spec0 4)) ↦{fullShare} G 4)) := by
  rw [arrays_eq', bigSep_W0, share0, share1, share2, share3, share4]

theorem arrBufs_chain (c : Dev nD) (U : (b : Ref sig .tc) → Buf (Elt F) ((c.tc : Thread nD τ).loc b)) :
    (Pipeline.arrBufs spec0 c U : sProp 𝕄) = iprop((((c.tc : Thread nD τ).loc main_v2) ↦{fullShare} U main_v2) ∗ (((c.tc : Thread nD τ).loc main_v3) ↦{fullShare} U main_v3)
      ∗ (((c.tc : Thread nD τ).loc main_v4_0) ↦{fullShare} U main_v4_0) ∗ (((c.tc : Thread nD τ).loc main_v4_1) ↦{fullShare} U main_v4_1)) := by
  unfold Pipeline.arrBufs
  rw [bigSep_eq_bigSepL_of_eq _ arrRefs_eq (by decide)]
  rfl

theorem arr0 : Pipeline.arrRef spec0 0 = main_v2 := rfl
theorem arr1 : Pipeline.arrRef spec0 1 = main_v3 := rfl
theorem arr2 : Pipeline.arrRef spec0 2 = main_v3 := rfl
theorem arr3 : Pipeline.arrRef spec0 3 = main_v4_0 := rfl
theorem arr4 : Pipeline.arrRef spec0 4 = main_v4_1 := rfl

/-- The distinct buffers behind the windows, each whole, are the windows' arrays at their shares: the second table's
    buffer is dealt to its two windows by halves. -/
theorem arrays_of_arrBufs (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (Pipeline.arrBufs spec0 c U : sProp 𝕄) ⊢ (dats m 0 c).arrays G := by
  rw [arrays_chain, arrBufs_chain, hG 0, hG 1, hG 2, hG 3, hG 4, arr0, arr1, arr3, arr4]
  iintro ⟨H2, H3, H40, H41⟩
  ihave H3' := (pointsTo_share (PosShare.mem_left_op_right fullShare)).1 $$ H3
  icases H3' with ⟨Hl, Hr⟩
  isplitl [H2]; · iexact H2
  isplitl [Hl]; · iexact Hl
  isplitl [Hr]; · iexact Hr
  isplitl [H40]; · iexact H40
  iexact H41

/-- And back: the two halves of the second table's buffer, at the same contents, are the whole again. -/
theorem arrBufs_of_arrays (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (dats m 0 c).arrays G ⊢ (Pipeline.arrBufs spec0 c U : sProp 𝕄) := by
  rw [arrays_chain, arrBufs_chain, hG 0, hG 1, hG 2, hG 3, hG 4, arr0, arr1, arr3, arr4]
  iintro ⟨H2, Hl, Hr, H40, H41⟩
  isplitl [H2]; · iexact H2
  isplitl [Hl Hr]
  · iapply (pointsTo_share (PosShare.mem_left_op_right fullShare)).2
    isplitl [Hl]; · iexact Hl
    iexact Hr
  isplitl [H40]; · iexact H40
  iexact H41

end Cert.Kernel.Body

end
-- ==== Proof.BitsTail.lean ====
/-
  The host operations around the kernel region.

  Before the region the host scales the first table and changes both tables' format; after it, it adds the two
  outputs, sums over the classes and divides by their number. The later operations read the two outputs and write
  fresh buffers only: no window's array is written. Leaving the region the five windows' arrays are the four buffers
  whole again (the second table's two halves rejoined), the host lines run on all the core's buffers, and afterwards
  the buffers are dealt back to the windows as they were.
-/
import proofs.«152175_g2000206405548727_pallasbulk_867_2_alg».proof.Proof.BitsArrays

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no window's array. -/
theorem sfx_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The buffers' contents when the region is left: the two outputs at what the pipeline wrote back, every other
    buffer as the region found it. -/
def WExit (c : Dev nD) : Valuation τ sig (Elt F) :=
  Function.update (Function.update (V0 m c) (Proc.devRef .tc (Pipeline.arrRef spec0 3)) ((dats m 0 c).arrAt 3 cfg0.N))
    (Proc.devRef .tc (Pipeline.arrRef spec0 4)) ((dats m 0 c).arrAt 4 cfg0.N)

theorem ne34 : (Proc.devRef .tc (Pipeline.arrRef spec0 3) : DevRef τ sig) ≠ Proc.devRef .tc (Pipeline.arrRef spec0 4) :=
  StableHlo.devRef_ne_of_ne (by decide)

/-- Every window's array at the exit is what the exit contents say of its buffer: an input's array never changed. -/
theorem exit_arr (c : Dev nD) (w : Fin cfg0.W) :
    (dats m 0 c).arrAt w cfg0.N = WExit m c (Proc.devRef .tc (Pipeline.arrRef spec0 w)) := by
  unfold WExit
  fin_cases w
  · rw [Function.update_of_ne (StableHlo.devRef_ne_of_ne (by decide)), Function.update_of_ne (StableHlo.devRef_ne_of_ne (by decide))]
    exact ((dats m 0 c).arrAt_in 0 rfl _).trans (A_eq m c 0)
  · rw [Function.update_of_ne (StableHlo.devRef_ne_of_ne (by decide)), Function.update_of_ne (StableHlo.devRef_ne_of_ne (by decide))]
    exact ((dats m 0 c).arrAt_in 1 rfl _).trans (A_eq m c 1)
  · rw [Function.update_of_ne (StableHlo.devRef_ne_of_ne (by decide)), Function.update_of_ne (StableHlo.devRef_ne_of_ne (by decide))]
    exact ((dats m 0 c).arrAt_in 2 rfl _).trans (A_eq m c 2)
  · rw [Function.update_of_ne ne34, Function.update_self]; rfl
  · rw [Function.update_self]; rfl

/-- The buffers' contents after the later lines. -/
abbrev WEnd (c : Dev nD) : Valuation τ sig (Elt F) := StableHlo.after (List.flatten [hostOps1]) (WExit m c)

/-- The later lines leave every window's array as it was. -/
theorem end_arr (c : Dev nD) (w : Fin cfg0.W) :
    (dats m 0 c).arrAt w cfg0.N = WEnd m c (Proc.devRef .tc (Pipeline.arrRef spec0 w)) := by
  unfold WEnd
  rw [StableHlo.after_of_forall_not_mem _ _ fun op hop => sfx_keeps op hop w]
  exact exit_arr m c w

/-- The buffers that are no window's array are at the exit as the region found them. -/
theorem rest_exit (c : Dev nD) :
    (Pipeline.unscopedRest spec0 c (V m c) : sProp 𝕄) = Pipeline.unscopedRest spec0 c (fun b => WExit m c (Proc.devRef .tc b)) := by
  unfold Pipeline.unscopedRest
  refine bigSep_congr fun b hb => ?_
  have hb' : ∀ w, Pipeline.arrRef spec0 w ≠ b := fun w e =>
    (Finset.mem_sdiff.mp hb).2 (Finset.mem_image.mpr ⟨w, Finset.mem_univ _, e⟩)
  unfold WExit
  beta_reduce
  rw [Function.update_of_ne (fun e => hb' 4 (Proc.devRef_injective _ e).symm), Function.update_of_ne (fun e => hb' 3 (Proc.devRef_injective _ e).symm)]

end Cert.Kernel.Body

end
-- ==== Proof.BitsRun.lean ====
/-
  The kernel program's run.

  From any memory, every weakly fair execution of the program terminates without a fault; afterwards every window's
  array holds what the pipeline's proof data computes for it, and every other buffer of the core holds what the host
  lines after the region leave from the region's exit contents. The region is launched with the second table's buffer
  dealt to its two windows by halves, and the host lines after it run on the buffers whole again.
-/
import proofs.«152175_g2000206405548727_pallasbulk_867_2_alg».proof.Proof.BitsTail

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The host lines after the region, from the region's exit: the windows' arrays are rejoined into whole buffers, the
    lines run, and the arrays are dealt back unchanged; every other buffer ends at the lines' result. -/
theorem htail (𝒱₀ : Variants) (c : Dev nD) (Q' : PUnit → sProp 𝕄) :
    iprop((iprop((dats m 0 c).arrays ((dats m 0 c).arrAt · cfg0.N) ∗ Pipeline.unscopedRest spec0 c (fun b => WEnd m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift 𝒱₀) (c.tc : Thread nD τ) none) Set.univ (Pipeline.chain ([hostOps1].map StableHlo.seq)) Q' := by
  have hpre : iprop((dats m 0 c).arrays ((dats m 0 c).arrAt · cfg0.N) ∗ Pipeline.unscopedRest spec0 c (V m c))
      ⊢ (StableHlo.held (c.tc : Thread nD τ) (Pipeline.ucRefs τ sig) (WExit m c) : sProp 𝕄) := by
    rw [← Pipeline.unscopedBufs_held, Pipeline.unscopedBufs_split₀ cfgs 0 winFacts₀0.arr_unscoped c, rest_exit]
    exact sep_mono (arrBufs_of_arrays m c _ _ (fun w => exit_arr m c w)) .rfl
  have hpost : (StableHlo.held (c.tc : Thread nD τ) (Pipeline.ucRefs τ sig) (WEnd m c) : sProp 𝕄)
      ⊢ iprop((dats m 0 c).arrays ((dats m 0 c).arrAt · cfg0.N) ∗ Pipeline.unscopedRest spec0 c (fun b => WEnd m c (Proc.devRef .tc b))) := by
    rw [← Pipeline.unscopedBufs_held, Pipeline.unscopedBufs_split₀ cfgs 0 winFacts₀0.arr_unscoped c]
    exact sep_mono (arrays_of_arrBufs m c _ _ (fun w => end_arr m c w)) .rfl
  rw [← List.append_nil ([hostOps1].map StableHlo.seq)]
  iintro ⟨Hk, Hb, Ha, Hz⟩
  ihave Hh := hpre $$ [Ha Hz]
  · isplitl [Ha] <;> iassumption
  iapply (Pipeline.wp_seqs_then (pcfgs (F := F)) defs₀ 𝒱₀ c (Pipeline.ucRefs τ sig) [] [hostOps1] sfx_sub sfx_fresh (WExit m c)) $$ [Hb Hh]
  · isplitl [Hb] <;> iassumption
  iintro Hb
  rw [Pipeline.chain_nil, wp_pure]
  imodintro
  iapply Hk
  icases Hb with ⟨-, H⟩
  iapply hpost
  iexact H

set_option backward.isDefEq.respectTransparency.types false in
/-- From any memory with zero counters every weakly fair execution of the program terminates; every window's array
    ends at what the proof data computes, every other unscoped buffer at what the later host lines leave. -/
theorem run_main : θ_run (defs (F := F)) (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = WEnd m c (Proc.devRef .tc b)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs m c _ (V m c) (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => WEnd m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ Pipeline.restRefs sig spec0, s.mem ((c.tc : Thread nD τ).loc b) = WEnd m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => WEnd m c (Proc.devRef .tc b)) s')
      isplitl [HU] <;> iassumption)
    (hQ := fun s h c => ⟨(h c).1, (h c).2.2⟩)

end Cert.Kernel.Body

end
-- ==== Proof.BitsFrame.lean ====
/-
  The kernel program's frame: it runs to the end without a fault and leaves both argument arrays as it found them.
  No host operation writes an argument, and no window of the kernel stages one, so each ends at its launch contents.
-/
import proofs.«152175_g2000206405548727_pallasbulk_867_2_alg».proof.Proof.BitsRun

set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no window's array and that no host operation writes ends at its launch contents. -/
theorem end_of_unwritten (c : Dev nD) (b : Ref sig .tc) (hb : ∀ w, Pipeline.arrRef spec0 w ≠ b)
    (h0 : ∀ op ∈ (List.flatten [hostOps0] : List (HloOp τ sig (Elt F))), Proc.devRef .tc b ∉ op.writes)
    (h1 : ∀ op ∈ (List.flatten [hostOps1] : List (HloOp τ sig (Elt F))), Proc.devRef .tc b ∉ op.writes) :
    WEnd m c (Proc.devRef .tc b) = m ((c : Thread nD τ).loc b) := by
  unfold WEnd
  rw [StableHlo.after_of_forall_not_mem _ _ h1]
  unfold WExit
  rw [Function.update_of_ne (fun e => hb 4 (Proc.devRef_injective _ e).symm), Function.update_of_ne (fun e => hb 3 (Proc.devRef_injective _ e).symm)]
  exact StableHlo.after_of_forall_not_mem _ _ h0

theorem end_arg0 (c : Dev nD) : WEnd m c (Proc.devRef .tc main_arg0) = m ((c : Thread nD τ).loc main_arg0) :=
  end_of_unwritten m c main_arg0 (by decide) (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))) (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_arg1 (c : Dev nD) : WEnd m c (Proc.devRef .tc main_arg1) = m ((c : Thread nD τ).loc main_arg1) :=
  end_of_unwritten m c main_arg1 (by decide) (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))) (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem v9_rest : main_v9 ∈ Pipeline.restRefs sig spec0 := Pipeline.mem_restRefs_of main_v9 rfl (by decide)

/-- The frame: every weakly fair execution terminates without a fault and both arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c => ⟨((h c).2 main_arg0 arg0_rest).trans (end_arg0 m c), ((h c).2 main_arg1 arg1_rest).trans (end_arg1 m c)⟩)
    (run_main m ρ)

end Cert.Kernel.Body

end
-- ==== Proof.IdealBody.lean ====
/-
  The loss kernel's body at one grid point, run on whole staging buffers.

  The body loads a block of 512 rows of the scaled first table (x0), the same rows of the second table (x1) and the
  whole second table (x2); it stores the rows' part of the loss into its first output, adds the block's column sums
  of exponentials onto a scratch row that it zeroes at the first point, and at the last point stores half the
  logarithm of the scratch row into its second output. Three cases, by the point: the first (scratch zeroed first),
  a middle one, the last (second output stored). Each store covers its whole buffer, so afterwards the buffer reads
  as the stored value; a load of a whole buffer reads its contents.
-/
import proofs.«152175_g2000206405548727_pallasbulk_867_2_alg».proof.Proof.Gen.KernelIdeal.Launch
import proofs.«152175_g2000206405548727_pallasbulk_867_2_alg».proof.Proof.Gen.KernelIdeal.Skeleton
import proofs.«152175_g2000206405548727_pallasbulk_867_2_alg».proof.Proof.Gen.KernelIdeal.Points
import proofs.«152175_g2000206405548727_pallasbulk_867_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-- The first branch is taken exactly when the grid coordinate is 0. -/
abbrev condInit (i : grid0.Coords) : Prop := (Scalar.cmpi .ne (Scalar.extui (Scalar.cmpi .eq (BitVec.ofNat 32 (i 0).val) 0#32)) 0#32) = 1#1
/-- The second branch is taken exactly when the grid coordinate is 3. -/
abbrev condFin (i : grid0.Coords) : Prop := k0_cond2 i = 1#1

/-- A load of a whole buffer through the zero-offset rectangle reads what the buffer holds. -/
theorem readAt_whole {S : Shape} {e : EltTy} (a : Memref sig .tc .vmem S e) (ha : a.IsWhole) {off : Fin S.rank → Nat}
    (h : off = fun _ => 0) (inb : ∀ x, off x + S.size x ≤ S.size x) (X : Vec F S e) :
    View.readAt (Elt F) a.view (Rect.unit off S.size inb).toLoadRect (ha.unread X) = X := by
  rw [View.readAt_eq_ld, ha.read_unread]; exact View.ld_unit_zero h inb X

set_option maxHeartbeats 1000000 in
/-- A middle point: neither branch. The scratch row gains the block's column sums; the second output is handed back as found. -/
theorem runB (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : ¬condInit i) (hc2 : ¬condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi5 ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare xi5
            ∗ owns (c : Thread nD τ) arg6 fullShare (k0_pay6 x0 x2 xs)) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2
  obtain rfl := harg5.eq_unread hf5; obtain rfl := harg6.eq_unread hf6
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr; · ipureintro; exact hf5
    iexact H5
  iexists _; isplitr
  swap; · iexact H6
  ipureintro
  (try sl_unfold_words)
  rw [View.read_writes_whole_last _ _ View.zero2, readAt_whole arg1 harg1 View.zero2, readAt_whole arg3 harg3 View.zero2,
    readAt_whole arg6 harg6 View.zero2]

set_option maxHeartbeats 1000000 in
/-- The first point: the scratch row is zeroed, then gains the block's column sums; the second output is handed back as found. -/
theorem runA (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : condInit i) (hc2 : ¬condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi5 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare xi5
            ∗ owns (c : Thread nD τ) arg6 fullShare (k0_pay6 x0 x2 (k0_pay5 (F := F)))) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  obtain rfl := harg1.eq_unread hf0; obtain rfl := harg2.eq_unread hf1; obtain rfl := harg3.eq_unread hf2
  obtain rfl := harg5.eq_unread hf5
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr; · ipureintro; exact hf5
    iexact H5
  iexists _; isplitr
  swap; · iexact H6
  ipureintro
  (try sl_unfold_words)
  rw [View.read_writes_whole_last _ _ View.zero2, readAt_whole arg1 harg1 View.zero2, readAt_whole arg3 harg3 View.zero2,
    View.readCov_unit_zero arg6.view View.zero2]

set_option maxHeartbeats 1000000 in
/-- The last point: the scratch row gains the block's column sums, and half its logarithm is stored into the second output. -/
theorem runC (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S2048x1024 .bf16) (harg3 : arg3.IsWhole) (arg4 : Memref sig .tc .vmem S512x1 .f32) (harg4 : arg4.IsWhole)
    (arg5 : Memref sig .tc .vmem S1x2048 .f32) (harg5 : arg5.IsWhole) (arg6 : Memref sig .tc .vmem S1x2048 .f32) (harg6 : arg6.IsWhole)
    (hc1 : ¬condInit i) (hc2 : condFin i)
    (x0 x1 : Vec F S512x1024 .bf16) (x2 : Vec F S2048x1024 .bf16) (xi5 xs : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2) ∗ owns (c : Thread nD τ) arg5 fullShare (k0_pay1 (k0_pay6 x0 x2 xs))
            ∗ owns (c : Thread nD τ) arg6 fullShare (k0_pay6 x0 x2 xs)) -∗ K ⟨⟩))
      ⊢ wp frame (wpE (defs₀ (F := F)) Variants.none c none) E (cc0__loss_tile_kernel i arg1 harg1 arg2 harg2 arg3 harg3 arg4 harg4 arg5 harg5 arg6 harg6) K := by
  simp only [cc0__loss_tile_kernel_eq_skeleton]; unfold cc0__loss_tile_kernel_skel
  simp only [k0_part1_eq_skeleton]; unfold k0_part1_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2
  obtain rfl := harg6.eq_unread hf6
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H4]
  · iexists _; isplitr
    swap; · iexact H4
    ipureintro
    (try sl_unfold_words)
    rw [View.read_writes_whole_last _ _ View.zero2, readAt_whole arg1 harg1 View.zero2, readAt_whole arg2 harg2 View.zero2,
      readAt_whole arg3 harg3 View.zero2]
  isplitl [H5]
  · iexists _; isplitr
    swap; · iexact H5
    ipureintro
    (try sl_unfold_words)
    rw [View.read_writes_whole_last _ _ View.zero2, View.readCov_unit_zero arg6.view View.zero2, readAt_whole arg1 harg1 View.zero2,
      readAt_whole arg3 harg3 View.zero2, readAt_whole arg6 harg6 View.zero2]
  iexists _; isplitr
  swap; · iexact H6
  ipureintro
  (try sl_unfold_words)
  rw [View.read_writes_whole_last _ _ View.zero2, readAt_whole arg1 harg1 View.zero2, readAt_whole arg3 harg3 View.zero2,
    readAt_whole arg6 harg6 View.zero2]

end Cert.KernelIdeal.Body

end
-- ==== Proof.IdealData.lean ====
/-
  The loss kernel's pipeline: what every staging buffer holds after the body at every grid point.

  Four points, one per block of 512 rows. After point t the first output's buffer holds the rows' part of the loss
  computed from that point's blocks; the scratch row holds the column sums of exponentials of blocks 0 … t, added in
  that order onto a zero (by recursion on the point); the second output's buffer is written at the last point only,
  with half the logarithm of the scratch row. The second table reaches the kernel through two windows (a row block
  and the whole table): the two windows hold the left and the right half of that array's share.
-/
import proofs.«152175_g2000206405548727_pallasbulk_867_2_alg».proof.Proof.IdealBody

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions and the idle points, decided over the four points -/

theorem hcondInit : ∀ t : Fin cfg0.N, condInit (grid0.coords t) ↔ t.val = 0 :=
  (by decide +kernel : ∀ t : Fin grid0.N, condInit (grid0.coords t) ↔ t.val = 0)
theorem hcondFin : ∀ t : Fin cfg0.N, condFin (grid0.coords t) ↔ t.val = 3 :=
  (by decide +kernel : ∀ t : Fin grid0.N, condFin (grid0.coords t) ↔ t.val = 3)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, t.val ≠ 3 → cfg0.idle 4 (grid0.coords t) = true := by decide +kernel
theorem noFlush0_4 : ∀ t : Fin cfg0.N, t.val ≠ 3 → (cfg0.win 4).flush t = false := by decide +kernel
theorem liveAt0_4 : ∀ t : Fin cfg0.N, t.val = 3 → cfg0.idle 4 (grid0.coords t) = false := by decide +kernel

/-! ## The staging memrefs at a point, and the scratch row -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
/-- The scratch row: a whole scoped buffer of the kernel's own. -/
abbrev scM : Memref sig .tc .vmem S1x2048 .f32 := Memref.whole cc0_scratch0

/-- The region's own invariant: the scratch row at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch row after points 0 … n: block n's column sums added onto what the points before left, a zero row
    before the first. -/
def acc (c : Dev nD) : (n : ℕ) → n < cfg0.N → Vec F S1x2048 .f32
  | 0, h => k0_pay6 (iblk m c 0 ⟨0, h⟩) (iblk m c 2 ⟨0, h⟩) (k0_pay5 (F := F))
  | n + 1, h => k0_pay6 (iblk m c 0 ⟨n + 1, h⟩) (iblk m c 2 ⟨n + 1, h⟩) (acc c n (Nat.lt_of_succ_lt h))

theorem acc_zero (c : Dev nD) (t : Fin cfg0.N) (h0 : t.val = 0) :
    acc m c t.val t.isLt = k0_pay6 (iblk m c 0 t) (iblk m c 2 t) (k0_pay5 (F := F)) := by
  obtain ⟨n, hn⟩ := t; cases n with
  | zero => rfl
  | succ n => exact absurd h0 (Nat.succ_ne_zero n)

theorem acc_pos (c : Dev nD) (t : Fin cfg0.N) (h0 : t.val ≠ 0) :
    acc m c t.val t.isLt = k0_pay6 (iblk m c 0 t) (iblk m c 2 t) (acc m c (t.val - 1) (by have := t.isLt; omega)) := by
  obtain ⟨n, hn⟩ := t; cases n with
  | zero => exact absurd rfl h0
  | succ n => rfl

/-- The invariant between points: before the first the region's own; after point n the scratch row at acc n. -/
def PhiS (c : Dev nD) : (n : ℕ) → n ≤ cfg0.N → sProp 𝕄
  | 0, _ => Pipeline.ΦA spec0 c
  | n + 1, h => iprop(iprop(owns (c : Thread nD τ) scM fullShare (acc m c n h)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (iblk m c 0 t) (iblk m c 1 t) (iblk m c 2 t)
    | ⟨4, _⟩ => k0_pay1 (acc m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay4 (iblk m c 0 t) (iblk m c 1 t) (iblk m c 2 t) := by dsimp only [dats]
theorem after0_4 (c : Dev nD) (t : Fin cfg0.N) : (dats m 0 c).after 4 t = k0_pay1 (acc m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

end Cert.KernelIdeal.Body

end
-- ==== Proof.IdealOblig.lean ====
/-
  The body obligation of the loss kernel's pipeline: at every grid point, from the invariant before the point and the
  staging buffers at what the pipeline hands the body, the body runs to the invariant after the point and the buffers
  at what the proof data names. By cases on the point: the first (the scratch row at anything, zeroed by the body),
  a middle one (the scratch row at what the point before left), the last (the second output stored).
-/
import proofs.«152175_g2000206405548727_pallasbulk_867_2_alg».proof.Proof.IdealData

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · -- the first point
    rw [Dat.leavesExact_idle (dats m 0 c) 4 t (idleAt0_4 t (by omega)) (noFlush0_4 t (by omega))]
    rw [acc_zero m c t h0, PhiS_castSucc m c t, PhiS_zero m c _ _ h0, PhiA0_eq]
    iintro ⟨⟨HS, Hg⟩, Ho, ⟨%d0, H0⟩, ⟨%d1, H1⟩, ⟨%d2, H2⟩, ⟨%d3, H3⟩, ⟨%d4, H4⟩⟩
    iapply (runA c (grid0.coords t) (ms0_0 t) (hs0_0 t) (ms0_1 t) (hs0_1 t) (ms0_2 t) (hs0_2 t) (ms0_3 t) (hs0_3 t) (ms0_4 t) (hs0_4 t) scM (Memref.isWhole_whole _)
      ((hcondInit t).mpr h0) (fun h => by have := (hcondFin t).mp h; omega) (iblk m c 0 t) (iblk m c 1 t) (iblk m c 2 t) ((dats m 0 c).before 4 t d4) (k0_pay5 (F := F)) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4
  · by_cases h3 : t.val = 3
    · -- the last point
      rw [show (dats m 0 c).leavesExact 4 t = owns (c : Thread nD τ) (ms0_4 t) fullShare ((dats m 0 c).after 4 t) from by
        unfold Dat.leavesExact; rw [liveAt0_4 t h3], after0_4]
      rw [acc_pos m c t h0, PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply (runC c (grid0.coords t) (ms0_0 t) (hs0_0 t) (ms0_1 t) (hs0_1 t) (ms0_2 t) (hs0_2 t) (ms0_3 t) (hs0_3 t) (ms0_4 t) (hs0_4 t) scM (Memref.isWhole_whole _)
      (fun h => h0 ((hcondInit t).mp h)) ((hcondFin t).mpr h3) (iblk m c 0 t) (iblk m c 1 t) (iblk m c 2 t) (k0_pay5 (F := F)) (acc m c (t.val - 1) (by omega)) Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle point
      rw [Dat.leavesExact_idle (dats m 0 c) 4 t (idleAt0_4 t h3) (noFlush0_4 t h3)]
      rw [acc_pos m c t h0, PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply (runB c (grid0.coords t) (ms0_0 t) (hs0_0 t) (ms0_1 t) (hs0_1 t) (ms0_2 t) (hs0_2 t) (ms0_3 t) (hs0_3 t) (ms0_4 t) (hs0_4 t) scM (Memref.isWhole_whole _)
      (fun h => h0 ((hcondInit t).mp h)) (fun h => h3 ((hcondFin t).mp h)) (iblk m c 0 t) (iblk m c 1 t) (iblk m c 2 t) ((dats m 0 c).before 4 t d4) (acc m c (t.val - 1) (by omega)) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch row holds is forgotten. -/
theorem hout (c : Dev nD) : (dats m 0 c).Φ (Fin.last cfg0.N) ⊢ Pipeline.ΦA spec0 c := by
  have hl : (Fin.last cfg0.N).val ≠ 0 := by rw [Fin.val_last]; have : cfg0.N = 4 := N_0; omega
  rw [show (dats m 0 c).Φ (Fin.last cfg0.N) = PhiS m c (Fin.last cfg0.N).val (Nat.le_of_lt_succ (Fin.last cfg0.N).isLt) from rfl,
    PhiS_pos m c _ _ hl, PhiA0_eq]
  iintro ⟨HS, Hg⟩
  isplitl [HS]
  · iexists _; iexact HS
  iexact Hg

end Cert.KernelIdeal.Body

end
-- ==== Proof.IdealArrays.lean ====
/-
  The kernel's windows and the buffers behind them.

  Five windows look at four buffers: the scaled first table, the second table (through TWO windows: a block of rows and
  the whole table), and the two outputs. The pipeline holds one points-to per window; the two windows on the second
  table hold the left and the right half of its share. Held together at the same contents, the halves are the whole
  buffer again. So the four buffers, each whole, are exactly the five windows' arrays, in both directions.
-/
import proofs.«152175_g2000206405548727_pallasbulk_867_2_alg».proof.Proof.IdealOblig

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrRefs_eq : Finset.univ.image (Pipeline.arrRef (spec0)) = [main_v2, main_v3, main_v4_0, main_v4_1].toFinset := by decide

theorem share0 (c : Dev nD) : (dats m 0 c).share 0 = fullShare := by unfold Dat.share; rfl
theorem share1 (c : Dev nD) : (dats m 0 c).share 1 = fullShare.left := by unfold Dat.share; rfl
theorem share2 (c : Dev nD) : (dats m 0 c).share 2 = fullShare.right := by unfold Dat.share; rfl
theorem share3 (c : Dev nD) : (dats m 0 c).share 3 = fullShare := by unfold Dat.share; rfl
theorem share4 (c : Dev nD) : (dats m 0 c).share 4 = fullShare := by unfold Dat.share; rfl

theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem arrays_chain (c : Dev nD) (G : (w : Fin cfg0.W) → Buf (Elt F) ((cfg0.win w).arr.view.loc (c.tc : Thread nD τ))) :
    (dats m 0 c).arrays G = iprop((((c.tc : Thread nD τ).loc (Pipeline.arrRef spec0 0)) ↦{fullShare} G 0)
      ∗ (((c.tc : Thread nD τ).loc (Pipeline.arrRef spec0 1)) ↦{fullShare.left} G 1)
      ∗ (((c.tc : Thread nD τ).loc (Pipeline.arrRef spec0 2)) ↦{fullShare.right} G 2)
      ∗ (((c.tc : Thread nD τ).loc (Pipeline.arrRef spec0 3)) ↦{fullShare} G 3)
      ∗ (((c.tc : Thread nD τ).loc (Pipeline.arrRef spec0 4)) ↦{fullShare} G 4)) := by
  rw [arrays_eq', bigSep_W0, share0, share1, share2, share3, share4]

theorem arrBufs_chain (c : Dev nD) (U : (b : Ref sig .tc) → Buf (Elt F) ((c.tc : Thread nD τ).loc b)) :
    (Pipeline.arrBufs spec0 c U : sProp 𝕄) = iprop((((c.tc : Thread nD τ).loc main_v2) ↦{fullShare} U main_v2) ∗ (((c.tc : Thread nD τ).loc main_v3) ↦{fullShare} U main_v3)
      ∗ (((c.tc : Thread nD τ).loc main_v4_0) ↦{fullShare} U main_v4_0) ∗ (((c.tc : Thread nD τ).loc main_v4_1) ↦{fullShare} U main_v4_1)) := by
  unfold Pipeline.arrBufs
  rw [bigSep_eq_bigSepL_of_eq _ arrRefs_eq (by decide)]
  rfl

theorem arr0 : Pipeline.arrRef spec0 0 = main_v2 := rfl
theorem arr1 : Pipeline.arrRef spec0 1 = main_v3 := rfl
theorem arr2 : Pipeline.arrRef spec0 2 = main_v3 := rfl
theorem arr3 : Pipeline.arrRef spec0 3 = main_v4_0 := rfl
theorem arr4 : Pipeline.arrRef spec0 4 = main_v4_1 := rfl

/-- The distinct buffers behind the windows, each whole, are the windows' arrays at their shares: the second table's
    buffer is dealt to its two windows by halves. -/
theorem arrays_of_arrBufs (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (Pipeline.arrBufs spec0 c U : sProp 𝕄) ⊢ (dats m 0 c).arrays G := by
  rw [arrays_chain, arrBufs_chain, hG 0, hG 1, hG 2, hG 3, hG 4, arr0, arr1, arr3, arr4]
  iintro ⟨H2, H3, H40, H41⟩
  ihave H3' := (pointsTo_share (PosShare.mem_left_op_right fullShare)).1 $$ H3
  icases H3' with ⟨Hl, Hr⟩
  isplitl [H2]; · iexact H2
  isplitl [Hl]; · iexact Hl
  isplitl [Hr]; · iexact Hr
  isplitl [H40]; · iexact H40
  iexact H41

/-- And back: the two halves of the second table's buffer, at the same contents, are the whole again. -/
theorem arrBufs_of_arrays (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (dats m 0 c).arrays G ⊢ (Pipeline.arrBufs spec0 c U : sProp 𝕄) := by
  rw [arrays_chain, arrBufs_chain, hG 0, hG 1, hG 2, hG 3, hG 4, arr0, arr1, arr3, arr4]
  iintro ⟨H2, Hl, Hr, H40, H41⟩
  isplitl [H2]; · iexact H2
  isplitl [Hl Hr]
  · iapply (pointsTo_share (PosShare.mem_left_op_right fullShare)).2
    isplitl [Hl]; · iexact Hl
    iexact Hr
  isplitl [H40]; · iexact H40
  iexact H41

end Cert.KernelIdeal.Body

end
-- ==== Proof.IdealTail.lean ====
/-
  The host operations around the kernel region.

  Before the region the host scales the first table and changes both tables' format; after it, it adds the two
  outputs, sums over the classes and divides by their number. The later operations read the two outputs and write
  fresh buffers only: no window's array is written. Leaving the region the five windows' arrays are the four buffers
  whole again (the second table's two halves rejoined), the host lines run on all the core's buffers, and afterwards
  the buffers are dealt back to the windows as they were.
-/
import proofs.«152175_g2000206405548727_pallasbulk_867_2_alg».proof.Proof.IdealArrays

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no window's array. -/
theorem sfx_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The buffers' contents when the region is left: the two outputs at what the pipeline wrote back, every other
    buffer as the region found it. -/
def WExit (c : Dev nD) : Valuation τ sig (Elt F) :=
  Function.update (Function.update (V0 m c) (Proc.devRef .tc (Pipeline.arrRef spec0 3)) ((dats m 0 c).arrAt 3 cfg0.N))
    (Proc.devRef .tc (Pipeline.arrRef spec0 4)) ((dats m 0 c).arrAt 4 cfg0.N)

theorem ne34 : (Proc.devRef .tc (Pipeline.arrRef spec0 3) : DevRef τ sig) ≠ Proc.devRef .tc (Pipeline.arrRef spec0 4) :=
  StableHlo.devRef_ne_of_ne (by decide)

/-- Every window's array at the exit is what the exit contents say of its buffer: an input's array never changed. -/
theorem exit_arr (c : Dev nD) (w : Fin cfg0.W) :
    (dats m 0 c).arrAt w cfg0.N = WExit m c (Proc.devRef .tc (Pipeline.arrRef spec0 w)) := by
  unfold WExit
  fin_cases w
  · rw [Function.update_of_ne (StableHlo.devRef_ne_of_ne (by decide)), Function.update_of_ne (StableHlo.devRef_ne_of_ne (by decide))]
    exact ((dats m 0 c).arrAt_in 0 rfl _).trans (A_eq m c 0)
  · rw [Function.update_of_ne (StableHlo.devRef_ne_of_ne (by decide)), Function.update_of_ne (StableHlo.devRef_ne_of_ne (by decide))]
    exact ((dats m 0 c).arrAt_in 1 rfl _).trans (A_eq m c 1)
  · rw [Function.update_of_ne (StableHlo.devRef_ne_of_ne (by decide)), Function.update_of_ne (StableHlo.devRef_ne_of_ne (by decide))]
    exact ((dats m 0 c).arrAt_in 2 rfl _).trans (A_eq m c 2)
  · rw [Function.update_of_ne ne34, Function.update_self]; rfl
  · rw [Function.update_self]; rfl

/-- The buffers' contents after the later lines. -/
abbrev WEnd (c : Dev nD) : Valuation τ sig (Elt F) := StableHlo.after (List.flatten [hostOps1]) (WExit m c)

/-- The later lines leave every window's array as it was. -/
theorem end_arr (c : Dev nD) (w : Fin cfg0.W) :
    (dats m 0 c).arrAt w cfg0.N = WEnd m c (Proc.devRef .tc (Pipeline.arrRef spec0 w)) := by
  unfold WEnd
  rw [StableHlo.after_of_forall_not_mem _ _ fun op hop => sfx_keeps op hop w]
  exact exit_arr m c w

/-- The buffers that are no window's array are at the exit as the region found them. -/
theorem rest_exit (c : Dev nD) :
    (Pipeline.unscopedRest spec0 c (V m c) : sProp 𝕄) = Pipeline.unscopedRest spec0 c (fun b => WExit m c (Proc.devRef .tc b)) := by
  unfold Pipeline.unscopedRest
  refine bigSep_congr fun b hb => ?_
  have hb' : ∀ w, Pipeline.arrRef spec0 w ≠ b := fun w e =>
    (Finset.mem_sdiff.mp hb).2 (Finset.mem_image.mpr ⟨w, Finset.mem_univ _, e⟩)
  unfold WExit
  beta_reduce
  rw [Function.update_of_ne (fun e => hb' 4 (Proc.devRef_injective _ e).symm), Function.update_of_ne (fun e => hb' 3 (Proc.devRef_injective _ e).symm)]

end Cert.KernelIdeal.Body

end
-- ==== Proof.IdealRun.lean ====
/-
  The kernel program's run.

  From any memory, every weakly fair execution of the program terminates without a fault; afterwards every window's
  array holds what the pipeline's proof data computes for it, and every other buffer of the core holds what the host
  lines after the region leave from the region's exit contents. The region is launched with the second table's buffer
  dealt to its two windows by halves, and the host lines after it run on the buffers whole again.
-/
import proofs.«152175_g2000206405548727_pallasbulk_867_2_alg».proof.Proof.IdealTail

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The host lines after the region, from the region's exit: the windows' arrays are rejoined into whole buffers, the
    lines run, and the arrays are dealt back unchanged; every other buffer ends at the lines' result. -/
theorem htail (𝒱₀ : Variants) (c : Dev nD) (Q' : PUnit → sProp 𝕄) :
    iprop((iprop((dats m 0 c).arrays ((dats m 0 c).arrAt · cfg0.N) ∗ Pipeline.unscopedRest spec0 c (fun b => WEnd m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift 𝒱₀) (c.tc : Thread nD τ) none) Set.univ (Pipeline.chain ([hostOps1].map StableHlo.seq)) Q' := by
  have hpre : iprop((dats m 0 c).arrays ((dats m 0 c).arrAt · cfg0.N) ∗ Pipeline.unscopedRest spec0 c (V m c))
      ⊢ (StableHlo.held (c.tc : Thread nD τ) (Pipeline.ucRefs τ sig) (WExit m c) : sProp 𝕄) := by
    rw [← Pipeline.unscopedBufs_held, Pipeline.unscopedBufs_split₀ cfgs 0 winFacts₀0.arr_unscoped c, rest_exit]
    exact sep_mono (arrBufs_of_arrays m c _ _ (fun w => exit_arr m c w)) .rfl
  have hpost : (StableHlo.held (c.tc : Thread nD τ) (Pipeline.ucRefs τ sig) (WEnd m c) : sProp 𝕄)
      ⊢ iprop((dats m 0 c).arrays ((dats m 0 c).arrAt · cfg0.N) ∗ Pipeline.unscopedRest spec0 c (fun b => WEnd m c (Proc.devRef .tc b))) := by
    rw [← Pipeline.unscopedBufs_held, Pipeline.unscopedBufs_split₀ cfgs 0 winFacts₀0.arr_unscoped c]
    exact sep_mono (arrays_of_arrBufs m c _ _ (fun w => end_arr m c w)) .rfl
  rw [← List.append_nil ([hostOps1].map StableHlo.seq)]
  iintro ⟨Hk, Hb, Ha, Hz⟩
  ihave Hh := hpre $$ [Ha Hz]
  · isplitl [Ha] <;> iassumption
  iapply (Pipeline.wp_seqs_then (pcfgs (F := F)) defs₀ 𝒱₀ c (Pipeline.ucRefs τ sig) [] [hostOps1] sfx_sub sfx_fresh (WExit m c)) $$ [Hb Hh]
  · isplitl [Hb] <;> iassumption
  iintro Hb
  rw [Pipeline.chain_nil, wp_pure]
  imodintro
  iapply Hk
  icases Hb with ⟨-, H⟩
  iapply hpost
  iexact H

set_option backward.isDefEq.respectTransparency.types false in
/-- From any memory with zero counters every weakly fair execution of the program terminates; every window's array
    ends at what the proof data computes, every other unscoped buffer at what the later host lines leave. -/
theorem run_main : θ_run (defs (F := F)) (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = WEnd m c (Proc.devRef .tc b)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs m c _ (V m c) (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => WEnd m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ Pipeline.restRefs sig spec0, s.mem ((c.tc : Thread nD τ).loc b) = WEnd m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => WEnd m c (Proc.devRef .tc b)) s')
      isplitl [HU] <;> iassumption)
    (hQ := fun s h c => ⟨(h c).1, (h c).2.2⟩)

end Cert.KernelIdeal.Body

end
-- ==== Proof.IdealFrame.lean ====
/-
  The kernel program's frame: it runs to the end without a fault and leaves both argument arrays as it found them.
  No host operation writes an argument, and no window of the kernel stages one, so each ends at its launch contents.
-/
import proofs.«152175_g2000206405548727_pallasbulk_867_2_alg».proof.Proof.IdealRun

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no window's array and that no host operation writes ends at its launch contents. -/
theorem end_of_unwritten (c : Dev nD) (b : Ref sig .tc) (hb : ∀ w, Pipeline.arrRef spec0 w ≠ b)
    (h0 : ∀ op ∈ (List.flatten [hostOps0] : List (HloOp τ sig (Elt F))), Proc.devRef .tc b ∉ op.writes)
    (h1 : ∀ op ∈ (List.flatten [hostOps1] : List (HloOp τ sig (Elt F))), Proc.devRef .tc b ∉ op.writes) :
    WEnd m c (Proc.devRef .tc b) = m ((c : Thread nD τ).loc b) := by
  unfold WEnd
  rw [StableHlo.after_of_forall_not_mem _ _ h1]
  unfold WExit
  rw [Function.update_of_ne (fun e => hb 4 (Proc.devRef_injective _ e).symm), Function.update_of_ne (fun e => hb 3 (Proc.devRef_injective _ e).symm)]
  exact StableHlo.after_of_forall_not_mem _ _ h0

theorem end_arg0 (c : Dev nD) : WEnd m c (Proc.devRef .tc main_arg0) = m ((c : Thread nD τ).loc main_arg0) :=
  end_of_unwritten m c main_arg0 (by decide) (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))) (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_arg1 (c : Dev nD) : WEnd m c (Proc.devRef .tc main_arg1) = m ((c : Thread nD τ).loc main_arg1) :=
  end_of_unwritten m c main_arg1 (by decide) (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))) (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem v9_rest : main_v9 ∈ Pipeline.restRefs sig spec0 := Pipeline.mem_restRefs_of main_v9 rfl (by decide)

/-- The frame: every weakly fair execution terminates without a fault and both arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c => ⟨((h c).2 main_arg0 arg0_rest).trans (end_arg0 m c), ((h c).2 main_arg1 arg1_rest).trans (end_arg1 m c)⟩)
    (run_main m ρ)

end Cert.KernelIdeal.Body

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LossSpec.lean ====
/-
  The symmetric contrastive loss of two embedding tables, as the two programs compute it.

  L and X are [2048, 1024] arrays of extended reals (the "learn" and "fix" tables), c the scale 1/0.07 as an f32
  word. The similarity of row r of L and row j of X is  s(r, j) = ∑ k, (L(r,k)·c)·X(j,k),  the diagonal term
  d(r) = ∑ k, (L(r,k)·c)·X(r,k).

  The kernel's loss of class r is   ½·log(∑ j, exp s(r,j)) − 1·d(r)  +  ½·log(colsum r),
  where colsum r = ∑ i, exp s(i,r) is accumulated one block of 512 rows at a time onto a zero.

  The reference's loss of class r is   ½·((lse (s(r,·)) − d(r)) + (lse (sT(r,·)) − d(r))),
  where lse u = m + log(∑ j, exp(u j − m)) with m the maximum of u (taken from −inf), and
  sT(r, j) = ∑ k, (X(r,k)·c)·L(j,k) is the similarity computed from the other table's row.

  Both programs return the mean over the 2048 classes: (0 + ∑ r, loss r) / 2048.
-/
import Idealize.ShloMosaic.PureOps.Ideal
import proofs.«152175_g2000206405548727_pallasbulk_867_2_alg».proof.Proof.LibChunkSum

noncomputable section

namespace Cert.T2TLoss

open Idealize.ShloMosaic

/-- The scale 1/0.07 rounded to f32. -/
abbrev sc : EReal := Ideal.ofBits .f32 0x41649249#32
/-- One half, one, zero, minus infinity and 2048 as f32 words. -/
abbrev half : EReal := Ideal.ofBits .f32 0x3F000000#32
abbrev one : EReal := Ideal.ofBits .f32 0x3F800000#32
abbrev zero : EReal := Ideal.ofBits .f32 0x00000000#32
abbrev negInf : EReal := Ideal.ofBits .f32 0xFF800000#32
abbrev n2048 : EReal := Ideal.ofBits .f32 0x45000000#32

abbrev Tab := Fin 2048 → Fin 1024 → EReal

/-- Similarity of row r of the scaled first table with row j of the second. -/
def sim (L X : Tab) (r j : Fin 2048) : EReal := ∑ k : Fin 1024, (L r k * sc) * X j k

/-- The same number computed from the second table's scaled row against the first table. -/
def simT (L X : Tab) (r j : Fin 2048) : EReal := ∑ k : Fin 1024, (X r k * sc) * L j k

/-- The diagonal term. -/
def diag (L X : Tab) (r : Fin 2048) : EReal := ∑ k : Fin 1024, (L r k * sc) * X r k

/-- Row r's part of the kernel's loss. -/
def rowPart (L X : Tab) (r : Fin 2048) : EReal :=
  half * Ideal.log (∑ j : Fin 2048, Ideal.exp (sim L X r j)) - one * diag L X r

/-- Rows 512·i … 512·i+511 as indices of the whole table. -/
abbrev rowOf (i : Fin 4) (p : Fin 512) : Fin 2048 := ChunkSum.at_ (by norm_num : 4 * 512 = 2048) i p

/-- Block i's contribution to column j's sum of exponentials. -/
def tile (L X : Tab) (i : Fin 4) (j : Fin 2048) : EReal := ∑ p : Fin 512, Ideal.exp (sim L X (rowOf i p) j)

/-- Column j's sum of exponentials, accumulated block by block onto a zero. -/
def colsum (L X : Tab) (j : Fin 2048) : EReal := zero + tile L X 0 j + tile L X 1 j + tile L X 2 j + tile L X 3 j

/-- The kernel's loss of class r. -/
def kernelRow (L X : Tab) (r : Fin 2048) : EReal := rowPart L X r + half * Ideal.log (colsum L X r)

/-- The kernel's result. -/
def kernelLoss (L X : Tab) : EReal := Ideal.div (zero + ∑ r : Fin 2048, kernelRow L X r) n2048

/-- log-sum-exp of a row with the maximum taken out first. -/
def lse (u : Fin 2048 → EReal) : EReal :=
  (Finset.univ : Finset (Fin 2048)).fold max negInf u
    + Ideal.log (∑ j : Fin 2048, Ideal.exp (u j - (Finset.univ : Finset (Fin 2048)).fold max negInf u))

/-- The reference's loss of class r. -/
def refRow (L X : Tab) (r : Fin 2048) : EReal :=
  half * ((lse (sim L X r) - diag L X r) + (lse (simT L X r) - diag L X r))

/-- The reference's result. -/
def refLoss (L X : Tab) : EReal := Ideal.div (zero + ∑ r : Fin 2048, refRow L X r) n2048

end Cert.T2TLoss

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelPayloads.lean ====
/-
  The kernel body's stored values, read at an index, on the extended reals.

  The body takes a block of 512 rows of the first table (twice: once as the rows to score, once for the diagonal
  term) and the whole second table, both already scaled and rounded. On the extended reals a widening of a float is
  the identity, the matrix unit's product into a zero accumulator is the sum over the contracted coordinate, and a
  reduction along one axis is the sum over that axis's coordinate. Each stored value is therefore, at an index, a
  closed expression in the loaded blocks' entries:

  * the matrix of exponentials:  exp (∑ k, A(p,k) · B(j,k))  at (p, j);
  * the row part:  ½ · log (∑ j, exp (∑ k, A(p,k) · B(j,k)))  −  1 · ∑ k, A(p,k) · A'(p,k)  at row p;
  * the column sums' start: the zero word;
  * the column sums' update:  old(j) + ∑ p, exp (∑ k, A(p,k) · B(j,k))  at column j;
  * the last step's store:  ½ · log (colsum j).

  The right-hand sides keep the operations in the order the body applies them.
-/
import proofs.«152175_g2000206405548727_pallasbulk_867_2_alg».proof.Proof.Gen.KernelIdeal.Skeleton
import proofs.«152175_g2000206405548727_pallasbulk_867_2_alg».proof.Proof.LossSpec
import Idealize.ShloMosaic.PureOps.Ideal.Laws
import Idealize.ShloMosaic.Lib.ValueIdx
import Idealize.ShloMosaic.Lib.Pipeline.Value
import proofs.«152175_g2000206405548727_pallasbulk_867_2_alg».proof.Proof.LibColumnLayout

noncomputable section

namespace Cert.KernelIdeal.Payloads

open Idealize.ShloMosaic Idealize.ShloMosaic.ValueIdx Cert.KernelIdeal Cert.KernelIdeal.Gen

/-! ## The contraction's index maps

The matrix product contracts axis 1 of both operands (the second operand is used transposed): at result
index (p, j) and contraction coordinate k the left operand is read at (p, k) and the right one at (j, k). -/

theorem contr_rank : dot_S512x1024_S2048x1024_S512x2048_1_1_0_0_n_n.contr.rank = 1 := rfl

theorem contr_size :
    dot_S512x1024_S2048x1024_S512x2048_1_1_0_0_n_n.contr.size ⟨0, by rw [contr_rank]; exact Nat.one_pos⟩ = 1024 := rfl

theorem lhs_ix (p : Fin 512) (j : Fin 2048) (k : Fin 1024) :
    dot_S512x1024_S2048x1024_S512x2048_1_1_0_0_n_n.lhsIdx (ix2 p j)
      ((contrEquiv1 dot_S512x1024_S2048x1024_S512x2048_1_1_0_0_n_n 1024 contr_rank contr_size).symm k) = ix2 p k := by
  funext a
  match a with
  | ⟨0, _⟩ =>
    apply Fin.ext
    simp [DotDims.lhsIdx, dot_S512x1024_S2048x1024_S512x2048_1_1_0_0_n_n]
    rfl
  | ⟨1, _⟩ =>
    apply Fin.ext
    refine (DotDims.lhsIdx_val_of_single _ (cl := 1) rfl _ _).trans ?_
    exact contrEquiv1_symm_val _ _ _ _ k

theorem rhs_ix (p : Fin 512) (j : Fin 2048) (k : Fin 1024) :
    dot_S512x1024_S2048x1024_S512x2048_1_1_0_0_n_n.rhsIdx (ix2 p j)
      ((contrEquiv1 dot_S512x1024_S2048x1024_S512x2048_1_1_0_0_n_n 1024 contr_rank contr_size).symm k) = ix2 j k := by
  funext a
  match a with
  | ⟨0, _⟩ =>
    apply Fin.ext
    simp [DotDims.rhsIdx, dot_S512x1024_S2048x1024_S512x2048_1_1_0_0_n_n]
    rfl
  | ⟨1, _⟩ =>
    apply Fin.ext
    refine (DotDims.rhsIdx_val_of_single _ (cr := 1) rfl _ _).trans ?_
    exact contrEquiv1_symm_val _ _ _ _ k

/-- The product into a zero accumulator, read at (p, j): the sum over the contracted coordinate. -/
theorem matmul_zero_apply {φ₁ φ₂ : FTy} (l : FVec Ideal S512x1024 φ₁) (r : FVec Ideal S2048x1024 φ₂) (p : Fin 512) (j : Fin 2048) :
    matmul (F := Ideal) dot_S512x1024_S2048x1024_S512x2048_1_1_0_0_n_n none l r (constant (F := Ideal) S512x2048 .f32 0x00000000#32) (ix2 p j)
      = ∑ k : Fin 1024, l (ix2 p k) * r (ix2 j k) := by
  refine (Ideal.matmul_constant_zero_apply _ none l r (ix2 p j)).trans ?_
  rw [← Equiv.sum_comp (contrEquiv1 dot_S512x1024_S2048x1024_S512x2048_1_1_0_0_n_n 1024 contr_rank contr_size).symm]
  exact Finset.sum_congr rfl fun k _ => by rw [lhs_ix p j k, rhs_ix p j k]

/-! ## Reductions along one axis of a matrix, read at a coordinate -/

/-- The source index over row `p` with `k` inserted on axis 1 is (p, k). -/
theorem lift_row {n m : Nat} (h : (⟨2, ![n, m]⟩ : Shape).Reduces [1] ⟨1, ![n]⟩) (p : Fin n) (k : Fin m) :
    h.lift (ix1 p) k = ix2 p k := by
  funext a
  match a with
  | ⟨0, _⟩ => rfl
  | ⟨1, _⟩ => rfl

/-- The source index over column `j` with `p` inserted on axis 0 is (p, j). -/
theorem lift_col {n m : Nat} (h : (⟨2, ![n, m]⟩ : Shape).Reduces [0] ⟨1, ![m]⟩) (j : Fin m) (p : Fin n) :
    h.lift (ix1 j) p = ix2 p j := by
  funext a
  match a with
  | ⟨0, _⟩ => rfl
  | ⟨1, _⟩ => rfl

/-- A sum along the rows' axis, kept as a one-column matrix, read at row `p`. -/
theorem rowsum_column_apply {n m : Nat} (x : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction (F := Ideal) .add [1] ⟨1, ![n]⟩ x 0x00000000#32 h hφ hacc) hc (ix2 p u)
      = ∑ k : Fin m, x (ix2 p k) := by
  refine (ColumnLayout.shapeCast_a_a1_apply _ hc p u).trans ?_
  refine (Ideal.multiReduction_add_single x _ h hφ hacc (ix1 p)).trans ?_
  exact Finset.sum_congr rfl fun k _ => congrArg x (lift_row h p k)

/-- A sum along the columns' axis, given a leading unit axis, read at column `j`. -/
theorem colsum_row_apply {n m : Nat} (x : FVec Ideal ⟨2, ![n, m]⟩ .f32) (h : (⟨2, ![n, m]⟩ : Shape).Reduces [0] ⟨1, ![m]⟩)
    (hφ : FKind.Formats .f32) (hacc : (0x00000000#32 : BitVec 32) = FKind.add.neutral .f32 hφ)
    (hc : (⟨1, ![m]⟩ : Shape).ShapeCasts ⟨2, ![1, m]⟩) (u : Fin 1) (j : Fin m) :
    shapeCast ⟨2, ![1, m]⟩ (multiReduction (F := Ideal) .add [0] ⟨1, ![m]⟩ x 0x00000000#32 h hφ hacc) hc (ix2 u j)
      = ∑ p : Fin n, x (ix2 p j) := by
  refine (shapeCast_a_1a_apply _ hc u j).trans ?_
  refine (Ideal.multiReduction_add_single x _ h hφ hacc (ix1 j)).trans ?_
  exact Finset.sum_congr rfl fun p _ => congrArg x (lift_col h j p)

/-! ## The body's stored values -/

section
variable (v0 v2 : Vec Ideal S512x1024 .bf16) (v4 : Vec Ideal S2048x1024 .bf16) (v25 v35 : Vec Ideal S1x2048 .f32)
  (p : Fin 512) (j : Fin 2048)

/-- The exponential of the similarity of row `p` of the first block with row `j` of the second table. -/
theorem pay3_apply :
    k0_pay3 (F := Ideal) v0 v4 (ix2 p j) = Ideal.exp (∑ k : Fin 1024, v0 (ix2 p k) * v4 (ix2 j k)) := by
  unfold k0_pay3 k0_pay2
  rw [shapeCast_self, shapeCast_self]
  exact congrArg Ideal.exp (matmul_zero_apply v0 v4 p j)

/-- Row `p`'s part of the loss: half the logarithm of the row's sum of exponentials, minus the diagonal term. -/
theorem pay4_apply :
    k0_pay4 (F := Ideal) v0 v2 v4 (ix2 p 0)
      = Cert.T2TLoss.half * Ideal.log (∑ j : Fin 2048, Ideal.exp (∑ k : Fin 1024, v0 (ix2 p k) * v4 (ix2 j k)))
        - Cert.T2TLoss.one * ∑ k : Fin 1024, v0 (ix2 p k) * v2 (ix2 p k) := by
  unfold k0_pay4 k0_pay2
  rw [shapeCast_self, shapeCast_self]
  refine congrArg₂ (fun a b : EReal => a - b) (congrArg (fun a : EReal => Cert.T2TLoss.half * a) (congrArg Ideal.log ?_))
    (congrArg (fun a : EReal => Cert.T2TLoss.one * a) ?_)
  · refine (rowsum_column_apply (k0_pay3 (F := Ideal) v0 v4) _ _ _ _ p 0).trans ?_
    exact Finset.sum_congr rfl fun j _ => pay3_apply v0 v4 p j
  · exact rowsum_column_apply _ _ _ _ _ p 0

/-- The column sums start from the zero word. -/
theorem pay5_apply : k0_pay5 (F := Ideal) (ix2 0 j) = Cert.T2TLoss.zero := by
  unfold k0_pay5
  rw [shapeCast_self]
  rfl

/-- Column `j`'s running sum gains this block's 512 exponentials. -/
theorem pay6_apply :
    k0_pay6 (F := Ideal) v0 v4 v25 (ix2 0 j)
      = v25 (ix2 0 j) + ∑ p : Fin 512, Ideal.exp (∑ k : Fin 1024, v0 (ix2 p k) * v4 (ix2 j k)) := by
  unfold k0_pay6
  rw [shapeCast_self]
  refine congrArg (fun a : EReal => v25 (ix2 0 j) + a) ?_
  refine (colsum_row_apply (k0_pay3 (F := Ideal) v0 v4) _ _ _ _ 0 j).trans ?_
  exact Finset.sum_congr rfl fun p _ => pay3_apply v0 v4 p j

/-- The last step's store: half the logarithm of the finished column sum. -/
theorem pay1_apply : k0_pay1 (F := Ideal) v35 (ix2 0 j) = Cert.T2TLoss.half * Ideal.log (v35 (ix2 0 j)) := by
  unfold k0_pay1
  rfl

end

end Cert.KernelIdeal.Payloads

end
-- ==== Proof.IdealValue1.lean ====
/-
  The idealized kernel's input blocks as entries of the two argument tables.

  When the region is entered the first window's array holds the first table scaled by the scale word (the host's
  narrowings are the identity on the extended reals) and the second and third windows' array holds the second table.
  At grid point t window 0's block is rows 512·t … 512·t + 511 of the scaled first table, window 1's the same rows
  of the second table, window 2's the whole second table: a block's coordinate on an axis is the block index times
  the block's extent plus the coordinate inside the block, and the block indices are decided over the four points.
-/
import proofs.«152175_g2000206405548727_pallasbulk_867_2_alg».proof.Proof.IdealData
import proofs.«152175_g2000206405548727_pallasbulk_867_2_alg».proof.Proof.KernelPayloads
import proofs.«152175_g2000206405548727_pallasbulk_867_2_alg».proof.Proof.LossSpec
import Idealize.ShloMosaic.Lib.StableHlo.Run
import Idealize.ShloMosaic.Lib.Pipeline.Value
import Idealize.ShloMosaic.Lib.ValueIdx

set_option maxRecDepth 16384

noncomputable section

namespace Cert.KernelIdeal.Value'

open Cert.KernelIdeal Cert.KernelIdeal.Gen Cert.KernelIdeal.Body
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-- The two argument arrays as the launch memory holds them, and the two arrays the region's input windows stage, as
    functions of a [2048, 1024] index. -/
abbrev Larr (c : Dev nD) : S2048x1024.Idx → EReal := m ((c : Thread nD τ).loc main_arg0)
abbrev Xarr (c : Dev nD) : S2048x1024.Idx → EReal := m ((c : Thread nD τ).loc main_arg1)
abbrev V2 (c : Dev nD) : S2048x1024.Idx → EReal := V m c main_v2
abbrev V3 (c : Dev nD) : S2048x1024.Idx → EReal := V m c main_v3

/-- The first table as the launch memory holds it. -/
abbrev Lt (c : Dev nD) : Cert.T2TLoss.Tab := fun r k => Larr m c (ix2 r k)
/-- The second table as the launch memory holds it. -/
abbrev Xt (c : Dev nD) : Cert.T2TLoss.Tab := fun r k => Xarr m c (ix2 r k)

/-! ## What the region finds

Before the region the host multiplies the first table by the scale word, entry by entry; the two narrowings to the
shorter float format are the identity on the extended reals. -/

/-- The first window's array: the first table scaled. -/
theorem V2_apply (c : Dev nD) (i : S2048x1024.Idx) : V2 m c i = Larr m c i * Cert.T2TLoss.sc := by
  revert i
  dsimp only [V2, V, V0]
  simp only [hostOps0, List.flatten_cons, List.flatten_nil, List.append_nil]
  after_results
  intro i
  rfl

/-- The second and third windows' array: the second table. -/
theorem V3_apply (c : Dev nD) (i : S2048x1024.Idx) : V3 m c i = Xarr m c i := by
  revert i
  dsimp only [V3, V, V0]
  simp only [hostOps0, List.flatten_cons, List.flatten_nil, List.append_nil]
  after_results
  intro i
  rfl

theorem V2_ix (c : Dev nD) (r : Fin 2048) (k : Fin 1024) : V2 m c (ix2 r k) = Lt m c r k * Cert.T2TLoss.sc :=
  V2_apply m c _

theorem V3_ix (c : Dev nD) (r : Fin 2048) (k : Fin 1024) : V3 m c (ix2 r k) = Xt m c r k := V3_apply m c _

/-! ## The blocks

Window 0 stages rows 512·t … 512·t + 511 of the scaled first table at point t, window 1 the same rows of the second
table, window 2 the whole second table. A block's coordinate on an axis is the window's block index there times the
block's extent plus the coordinate inside the block. -/

/-- The three input blocks at a point, as functions of their index. -/
abbrev B0 (c : Dev nD) (t : Fin cfg0.N) : S512x1024.Idx → EReal := iblk m c 0 t
abbrev B1 (c : Dev nD) (t : Fin cfg0.N) : S512x1024.Idx → EReal := iblk m c 1 t
abbrev B2 (c : Dev nD) (t : Fin cfg0.N) : S2048x1024.Idx → EReal := iblk m c 2 t

/-- Row p of block t as a row of the whole table: 512·t + p. -/
abbrev rowAt (t : Fin cfg0.N) (p : Fin 512) : Fin 2048 := Cert.T2TLoss.rowOf (Fin.cast N_0 t) p

theorem rowAt_val (t : Fin cfg0.N) (p : Fin 512) : (rowAt t p).val = t.val * 512 + p.val := rfl

/-- The windows' block indices, decided over the four points. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 0's block at point t: rows 512·t + p of the scaled first table. -/
theorem B0_apply (c : Dev nD) (t : Fin cfg0.N) (p : Fin 512) (k : Fin 1024) :
    B0 m c t (ix2 p k) = V2 m c (ix2 (rowAt t p) k) := by
  obtain ⟨e0, e1⟩ := index0 t
  show ((cfg0.win 0).blk t).view.read (Elt Ideal) (V m c (Pipeline.arrRef spec0 0)) (ix2 p k) = _
  rw [View.read_apply]
  show V2 m c (((cfg0.win 0).blk t).view.emb (ix2 p k)) = V2 m c (ix2 (rowAt t p) k)
  refine congrArg (V2 m c) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- Window 1's block at point t: the same rows of the second table. -/
theorem B1_apply (c : Dev nD) (t : Fin cfg0.N) (p : Fin 512) (k : Fin 1024) :
    B1 m c t (ix2 p k) = V3 m c (ix2 (rowAt t p) k) := by
  obtain ⟨e0, e1⟩ := index1 t
  show ((cfg0.win 1).blk t).view.read (Elt Ideal) (V m c (Pipeline.arrRef spec0 1)) (ix2 p k) = _
  rw [View.read_apply]
  show V3 m c (((cfg0.win 1).blk t).view.emb (ix2 p k)) = V3 m c (ix2 (rowAt t p) k)
  refine congrArg (V3 m c) (funext fun a => Fin.ext ?_)
  match a with
  | ⟨0, _⟩ => show win0_1.index t (0 : Fin 2) * 512 + 1 * p.val = t.val * 512 + p.val; omega
  | ⟨1, _⟩ => show win0_1.index t (1 : Fin 2) * 1024 + 1 * k.val = k.val; omega

/-- Window 2's block at every point: the whole second table. -/
theorem B2_apply (c : Dev nD) (t : Fin cfg0.N) (j : Fin 2048) (k : Fin 1024) :
    B2 m c t (ix2 j k) = V3 m c (ix2 j k) := by
  obtain ⟨e0, e1⟩ := index2 t
  show ((cfg0.win 2).blk t).view.read (Elt Ideal) (V m c (Pipeline.arrRef spec0 2)) (ix2 j k) = _
  rw [View.read_apply]
  show V3 m c (((cfg0.win 2).blk t).view.emb (ix2 j k)) = V3 m c (ix2 j k)
  refine congrArg (V3 m c) (funext fun a => Fin.ext ?_)
  match a with
  | ⟨0, _⟩ => show win0_2.index t (0 : Fin 2) * 2048 + 1 * j.val = j.val; omega
  | ⟨1, _⟩ => show win0_2.index t (1 : Fin 2) * 1024 + 1 * k.val = k.val; omega

end Cert.KernelIdeal.Value'
end
-- ==== Proof.HostTail.lean ====
/-
  The host operations that follow the kernel region, as pure functions of the region's output arrays, read at the
  scalar result.

  The kernel's program reshapes its two outputs — a [2048, 1] column R and a [1, 2048] row C — to vectors of 2048
  entries, adds them entrywise, sums the result from the zero word and divides by the word of 2048:
      (0 + ∑ r, (R(r, 0) + C(0, r))) / 2048.
  The reference's program reshapes its one [2048, 1] output and does the same:  (0 + ∑ r, R(r, 0)) / 2048.

  A reshape reads the operand at the index with the same row-major position: entry r of the [2048] vector is entry
  (r, 0) of a [2048, 1] array (r·1 + 0 = r) and entry (0, r) of a [1, 2048] array (0·2048 + r = r). The host's
  sum over the one axis of a vector into a scalar is the initial value plus the sum over all 2048 entries.
-/
import proofs.«152175_g2000206405548727_pallasbulk_867_2_alg».proof.KernelIdeal
import proofs.«152175_g2000206405548727_pallasbulk_867_2_alg».proof.ReferenceIdeal
import proofs.«152175_g2000206405548727_pallasbulk_867_2_alg».proof.Proof.LossSpec
import Idealize.ShloMosaic.PureOps.Ideal.Laws
import Idealize.ShloMosaic.Lib.ValueIdx
import Idealize.ShloMosaic.Lib.Pipeline.Value
import Idealize.ShloMosaic.Lib.ValueLayout

noncomputable section

namespace Cert.T2TLoss

open Idealize.ShloMosaic Idealize.ShloMosaic.ValueIdx

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- An [a, 1] array cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The kernel program's host operations after its region, as one function of the region's two outputs. -/
def kernelTail [Cert.KernelIdeal.Facts] (R : FVec Ideal Cert.KernelIdeal.S2048x1 .f32)
    (C : FVec Ideal Cert.KernelIdeal.S1x2048 .f32) : FVec Ideal Cert.KernelIdeal.S_ .f32 :=
  Host.divf
    ((fun x v => Host.reduceAdd x v Cert.KernelIdeal.Facts₀.reducesTo_S2048_S_d0 Cert.KernelIdeal.Facts₀.h_S_)
      (addf (shapeCast Cert.KernelIdeal.S2048 R Cert.KernelIdeal.Facts₀.shapeCasts_S2048x1_S2048)
        (shapeCast Cert.KernelIdeal.S2048 C Cert.KernelIdeal.Facts₀.shapeCasts_S1x2048_S2048))
      (constant (F := Ideal) Cert.KernelIdeal.S_ .f32 0x00000000#32))
    (constant (F := Ideal) Cert.KernelIdeal.S_ .f32 0x45000000#32)

/-- Read at the scalar: the zero word plus the sum of the entrywise sums, over the word of 2048. -/
theorem kernelTail_apply [Cert.KernelIdeal.Facts] (R : FVec Ideal Cert.KernelIdeal.S2048x1 .f32)
    (C : FVec Ideal Cert.KernelIdeal.S1x2048 .f32) :
    kernelTail R C ix0 = Ideal.div (zero + ∑ r : Fin 2048, (R (ix2 r 0) + C (ix2 0 r))) n2048 := by
  have e : kernelTail R C ix0
      = Ideal.div (Ideal.hostReduceAdd Cert.KernelIdeal.Facts₀.reducesTo_S2048_S_d0
          (fun i => shapeCast Cert.KernelIdeal.S2048 R Cert.KernelIdeal.Facts₀.shapeCasts_S2048x1_S2048 i
            + shapeCast Cert.KernelIdeal.S2048 C Cert.KernelIdeal.Facts₀.shapeCasts_S1x2048_S2048 i) zero ix0) n2048 := rfl
  rw [e, Ideal.hostReduceAdd_total _ (fun b => b.elim0), sum_idx1]
  refine congrArg (fun t => Ideal.div (zero + t) n2048) (Finset.sum_congr rfl fun r _ => ?_)
  rw [shapeCast_a1_a_apply, shapeCast_1a_a_apply]

/-- The reference program's host operations after its region, as a function of the region's output. -/
def refTail [Cert.ReferenceIdeal.Facts] (R : FVec Ideal Cert.ReferenceIdeal.S2048x1 .f32) :
    FVec Ideal Cert.ReferenceIdeal.S_ .f32 :=
  Host.divf
    ((fun x v => Host.reduceAdd x v Cert.ReferenceIdeal.Facts₀.reducesTo_S2048_S_d0 Cert.ReferenceIdeal.Facts₀.h_S_)
      (shapeCast Cert.ReferenceIdeal.S2048 R Cert.ReferenceIdeal.Facts₀.shapeCasts_S2048x1_S2048)
      (constant (F := Ideal) Cert.ReferenceIdeal.S_ .f32 0x00000000#32))
    (constant (F := Ideal) Cert.ReferenceIdeal.S_ .f32 0x45000000#32)

/-- Read at the scalar: the zero word plus the sum of the column, over the word of 2048. -/
theorem refTail_apply [Cert.ReferenceIdeal.Facts] (R : FVec Ideal Cert.ReferenceIdeal.S2048x1 .f32) :
    refTail R ix0 = Ideal.div (zero + ∑ r : Fin 2048, R (ix2 r 0)) n2048 := by
  have e : refTail R ix0
      = Ideal.div (Ideal.hostReduceAdd Cert.ReferenceIdeal.Facts₀.reducesTo_S2048_S_d0
          (shapeCast Cert.ReferenceIdeal.S2048 R Cert.ReferenceIdeal.Facts₀.shapeCasts_S2048x1_S2048) zero ix0) n2048 := rfl
  rw [e, Ideal.hostReduceAdd_total _ (fun b => b.elim0), sum_idx1]
  refine congrArg (fun t => Ideal.div (zero + t) n2048) (Finset.sum_congr rfl fun r _ => ?_)
  rw [shapeCast_a1_a_apply]

end Cert.T2TLoss

end
-- ==== Proof.IdealValue.lean ====
/-
  The idealized kernel's two output arrays after the run, as the specification's functions.

  With L and X the two argument tables as the launch memory holds them: at grid point t the body's contraction of
  row p of window 0's block with row j of window 2's block is the similarity s(512·t + p, j), and with the same row of
  window 1's block the diagonal term d(512·t + p); so what point t stores into the first output at row p is the row
  part of the loss of row 512·t + p, and the block's column sums of exponentials are the specification's tile t.

  The scratch row after the four points is  zero + tile 0 + tile 1 + tile 2 + tile 3  at every column (one tile
  added per point, onto the zero word the first point starts from): the specification's column sum.

  Every point writes its 512 rows of the first output back and the four blocks cover the 2048 rows (row r is in the
  block of point r / 512), so the first output array ends holding the row parts. The second output is written back
  once, at the last point, by one block that is the whole array: it ends holding half the logarithm of the column sums.
  Read through the host operations that follow, the two arrays give the kernel's loss.
-/
import proofs.«152175_g2000206405548727_pallasbulk_867_2_alg».proof.Proof.IdealValue1
import proofs.«152175_g2000206405548727_pallasbulk_867_2_alg».proof.Proof.HostTail

set_option maxRecDepth 16384

noncomputable section

namespace Cert.KernelIdeal.Value'

open Cert.KernelIdeal Cert.KernelIdeal.Gen Cert.KernelIdeal.Body
open Idealize.ShloMosaic Idealize.ShloMosaic.TcCoe Idealize.SL.Sem Idealize.ShloMosaic.ValueIdx
open Idealize.ShloMosaic.StableHlo
open Idealize.ShloMosaic.Pipeline (Dat)
open Cert.T2TLoss (sim simT diag rowPart rowOf tile colsum half one zero sc)

variable (m : (ℓ : Loc nD τ sig) → Buf (Elt Ideal) ℓ)

/-! ## The blocks' sums as the specification's -/

/-- The contraction of row p of block t with row j of the second table is the similarity of rows 512·t + p and j. -/
theorem simB (c : Dev nD) (t : Fin cfg0.N) (p : Fin 512) (j : Fin 2048) :
    ∑ k : Fin 1024, B0 m c t (ix2 p k) * B2 m c t (ix2 j k) = sim (Lt m c) (Xt m c) (rowAt t p) j := by
  unfold Cert.T2TLoss.sim
  refine Finset.sum_congr rfl fun k _ => ?_
  rw [B0_apply, B2_apply, V2_ix, V3_ix]

/-- The contraction of row p of block t with the same row of the second table is the diagonal term. -/
theorem diagB (c : Dev nD) (t : Fin cfg0.N) (p : Fin 512) :
    ∑ k : Fin 1024, B0 m c t (ix2 p k) * B1 m c t (ix2 p k) = diag (Lt m c) (Xt m c) (rowAt t p) := by
  unfold Cert.T2TLoss.diag
  refine Finset.sum_congr rfl fun k _ => ?_
  rw [B0_apply, B1_apply, V2_ix, V3_ix]

/-- Block t's column sum of exponentials is the specification's tile. -/
theorem tileB (c : Dev nD) (t : Fin cfg0.N) (j : Fin 2048) :
    ∑ p : Fin 512, Ideal.exp (∑ k : Fin 1024, B0 m c t (ix2 p k) * B2 m c t (ix2 j k))
      = tile (Lt m c) (Xt m c) (Fin.cast N_0 t) j := by
  unfold Cert.T2TLoss.tile
  refine Finset.sum_congr rfl fun p _ => ?_
  rw [simB]

/-- What point t stores into the first output, at row p: the row part of the loss of row 512·t + p. -/
theorem pay4_row (c : Dev nD) (t : Fin cfg0.N) (p : Fin 512) :
    k0_pay4 (F := Ideal) (iblk m c 0 t) (iblk m c 1 t) (iblk m c 2 t) (ix2 p 0)
      = rowPart (Lt m c) (Xt m c) (rowAt t p) := by
  refine (Payloads.pay4_apply _ _ _ p).trans ?_
  show half * Ideal.log (∑ j : Fin 2048, Ideal.exp (∑ k : Fin 1024, B0 m c t (ix2 p k) * B2 m c t (ix2 j k)))
      - one * ∑ k : Fin 1024, B0 m c t (ix2 p k) * B1 m c t (ix2 p k) = _
  unfold Cert.T2TLoss.rowPart
  simp only [simB, diagB]

/-! ## The scratch row -/

/-- After the first point the scratch row holds the zero word plus block 0's tile. -/
theorem acc_apply_zero (c : Dev nD) (h : 0 < cfg0.N) (j : Fin 2048) :
    acc m c 0 h (ix2 0 j) = zero + tile (Lt m c) (Xt m c) (Fin.cast N_0 ⟨0, h⟩) j := by
  show k0_pay6 (F := Ideal) (iblk m c 0 ⟨0, h⟩) (iblk m c 2 ⟨0, h⟩) (k0_pay5 (F := Ideal)) (ix2 0 j) = _
  refine (Payloads.pay6_apply _ _ _ j).trans ?_
  rw [Payloads.pay5_apply]
  exact congrArg (fun q => zero + q) (tileB m c ⟨0, h⟩ j)

/-- Each later point adds its block's tile. -/
theorem acc_apply_succ (c : Dev nD) (n : ℕ) (h : n + 1 < cfg0.N) (j : Fin 2048) :
    acc m c (n + 1) h (ix2 0 j)
      = acc m c n (Nat.lt_of_succ_lt h) (ix2 0 j) + tile (Lt m c) (Xt m c) (Fin.cast N_0 ⟨n + 1, h⟩) j := by
  show k0_pay6 (F := Ideal) (iblk m c 0 ⟨n + 1, h⟩) (iblk m c 2 ⟨n + 1, h⟩) (acc m c n (Nat.lt_of_succ_lt h)) (ix2 0 j) = _
  refine (Payloads.pay6_apply _ _ _ j).trans ?_
  exact congrArg (fun q => acc m c n (Nat.lt_of_succ_lt h) (ix2 0 j) + q) (tileB m c ⟨n + 1, h⟩ j)

/-- After the last point the scratch row holds the column sums, accumulated block by block onto the zero word. -/
theorem acc_last (c : Dev nD) (h : 3 < cfg0.N) (j : Fin 2048) :
    acc m c 3 h (ix2 0 j) = colsum (Lt m c) (Xt m c) j := by
  rw [acc_apply_succ, acc_apply_succ, acc_apply_succ, acc_apply_zero]
  rfl

/-! ## The two output arrays after the run -/

/-- The first output array after the run, and what it ends holding: row r's part of the loss at (r, 0). -/
abbrev Rout (c : Dev nD) : S2048x1.Idx → EReal := (dats m 0 c).arrAt 3 cfg0.N
abbrev Grow (c : Dev nD) : S2048x1.Idx → EReal := fun i => rowPart (Lt m c) (Xt m c) (i 0)
/-- The second output array after the run, and what it ends holding: half the logarithm of column j's sum at (0, j). -/
abbrev Cout (c : Dev nD) : S1x2048.Idx → EReal := (dats m 0 c).arrAt 4 cfg0.N
abbrev Gcol (c : Dev nD) : S1x2048.Idx → EReal := fun i => half * Ideal.log (colsum (Lt m c) (Xt m c) (i 1))

/-- Point t writes back rows 512·t … 512·t + 511 of the row parts. -/
theorem flushed3_eq (c : Dev nD) (t : Fin cfg0.N) (hf : (cfg0.win 3).flush t = true) :
    (dats m 0 c).flushed 3 t = ((cfg0.win 3).blk t).view.read (Elt Ideal) (Grow m c) := by
  obtain ⟨e0, e1⟩ := index3 t
  show (cfg0.win 3).cut (grid0.coords t) ((dats m 0 c).after 3 t) = _
  rw [after0_3]
  funext y
  rw [View.read_apply]
  show k0_pay4 (F := Ideal) (iblk m c 0 t) (iblk m c 1 t) (iblk m c 2 t) y = Grow m c (((cfg0.win 3).blk t).view.emb y)
  obtain ⟨p, u, rfl⟩ : ∃ (p : Fin 512) (u : Fin 1), y = ix2 p u := ⟨y 0, y 1, eq_ix2 y⟩
  obtain rfl : u = 0 := Subsingleton.elim _ _
  rw [pay4_row]
  refine congrArg (rowPart (Lt m c) (Xt m c)) (Fin.ext ?_)
  show t.val * 512 + p.val = win0_3.index t (0 : Fin 2) * 512 + 1 * p.val
  omega

/-- Every row is in the block of the point r / 512, and every point writes its block back. -/
theorem cover3 (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 4 := N_0
  obtain ⟨t, ht⟩ : ∃ t : Fin cfg0.N, t.val = (i 0).val / 512 := ⟨⟨(i 0).val / 512, by rw [hN]; omega⟩, rfl⟩
  obtain ⟨e0, e1⟩ := index3 t
  refine ⟨t, flush0_3 t, ?_⟩
  show i ∈ ((View.whole main_v4_0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

/-- The first output array ends holding the row parts. -/
theorem rowArr (c : Dev nD) : Rout m c = Grow m c :=
  (dats m 0 c).arrAt_eq_of_cover 3 (Grow m c) (flushed3_eq m c) cover3

/-- The first output array after the run, read at (r, 0): row r's part of the kernel's loss. -/
theorem rowOut (c : Dev nD) (r : Fin 2048) : Rout m c (ix2 r 0) = rowPart (Lt m c) (Xt m c) r := by
  rw [rowArr]

/-- The one write-back of the second output, at the last point, writes half the logarithm of the column sums. -/
theorem flushed4_eq (c : Dev nD) (t : Fin cfg0.N) (hf : (cfg0.win 4).flush t = true) :
    (dats m 0 c).flushed 4 t = ((cfg0.win 4).blk t).view.read (Elt Ideal) (Gcol m c) := by
  have hN : cfg0.N = 4 := N_0
  have h3 : t.val = 3 := by have := (flush0_4 t).mp hf; have := t.isLt; omega
  obtain ⟨n, hn⟩ := t
  simp only at h3
  subst h3
  obtain ⟨e0, e1⟩ := index4 ⟨3, hn⟩
  show (cfg0.win 4).cut (grid0.coords ⟨3, hn⟩) ((dats m 0 c).after 4 ⟨3, hn⟩) = _
  rw [after0_4]
  funext y
  rw [View.read_apply]
  show k0_pay1 (F := Ideal) (acc m c 3 hn) y = Gcol m c (((cfg0.win 4).blk ⟨3, hn⟩).view.emb y)
  obtain ⟨u, j, rfl⟩ : ∃ (u : Fin 1) (j : Fin 2048), y = ix2 u j := ⟨y 0, y 1, eq_ix2 y⟩
  obtain rfl : u = 0 := Subsingleton.elim _ _
  rw [Payloads.pay1_apply, acc_last]
  refine congrArg (fun q => half * Ideal.log (colsum (Lt m c) (Xt m c) q)) (Fin.ext ?_)
  show j.val = win0_4.index ⟨3, hn⟩ (1 : Fin 2) * 2048 + 1 * j.val
  omega

/-- The last point's block is the whole second output array. -/
theorem cover4 (i : S1x2048.Idx) :
    ∃ t : Fin cfg0.N, (cfg0.win 4).flush t = true ∧ i ∈ ((cfg0.win 4).blk t).view.set := by
  have hi0 : (i 0).val < 1 := (i 0).isLt
  have hi1 : (i 1).val < 2048 := (i 1).isLt
  have hN : cfg0.N = 4 := N_0
  obtain ⟨t, ht⟩ : ∃ t : Fin cfg0.N, t.val = 3 := ⟨⟨3, by rw [hN]; omega⟩, rfl⟩
  obtain ⟨e0, e1⟩ := index4 t
  refine ⟨t, (flush0_4 t).mpr (by omega), ?_⟩
  show i ∈ ((View.whole main_v4_1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 2048 ≤ (i 1).val ∧ (i 1).val < win0_4.index t (1 : Fin 2) * 2048 + 2048
    omega

/-- The second output array ends holding half the logarithm of the column sums. -/
theorem colArr (c : Dev nD) : Cout m c = Gcol m c :=
  (dats m 0 c).arrAt_eq_of_cover 4 (Gcol m c) (flushed4_eq m c) cover4

/-- The second output array after the run, read at (0, j): half the logarithm of column j's sum of exponentials. -/
theorem colOut (c : Dev nD) (j : Fin 2048) :
    Cout m c (ix2 0 j) = half * Ideal.log (colsum (Lt m c) (Xt m c) j) := by
  rw [colArr]

/-- The host operations after the region, applied to the two output arrays, give the kernel's loss. -/
theorem tail_eq_kernelLoss (c : Dev nD) :
    Cert.T2TLoss.kernelTail (Rout m c) (Cout m c) ix0 = Cert.T2TLoss.kernelLoss (Lt m c) (Xt m c) := by
  rw [Cert.T2TLoss.kernelTail_apply]
  unfold Cert.T2TLoss.kernelLoss Cert.T2TLoss.kernelRow
  simp only [rowOut, colOut]

end Cert.KernelIdeal.Value'
end
-- ==== Proof.IdealResult.lean ====
/-
  What the idealized kernel program returns.

  After the region the host adds the two outputs, sums over the classes and divides by their number. Reading those
  operations as one function of the two output arrays, and the arrays as the specification's functions of the two
  tables, the result buffer holds the kernel's loss of the two tables, at its one index.
-/
import proofs.«152175_g2000206405548727_pallasbulk_867_2_alg».proof.Proof.IdealFrame
import proofs.«152175_g2000206405548727_pallasbulk_867_2_alg».proof.Proof.IdealValue
import Idealize.ShloMosaic.Lib.StableHlo.Run

set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Idealize.ShloMosaic.StableHlo Idealize.ShloMosaic.ValueIdx
open Cert.KernelIdeal.Value' (Lt Xt Rout Cout tail_eq_kernelLoss)

variable (m : (ℓ : Loc nD τ sig) → Buf (Elt Ideal) ℓ) (ρ : Dev nD → PrngReg)

/-- The result buffer after the later host lines: their function of the two output arrays. -/
theorem end_v9 (c : Dev nD) :
    WEnd m c (Proc.devRef .tc main_v9) = Cert.T2TLoss.kernelTail (Rout m c) (Cout m c) := by
  have h : StableHlo.after (hostOps1 (F := Ideal)) (WExit m c) main_v9
      = Cert.T2TLoss.kernelTail (WExit m c main_v4_0) (WExit m c main_v4_1) := by
    after_results; rfl
  have e3 : Rout m c = WExit m c (Proc.devRef .tc (Pipeline.arrRef spec0 3)) := exit_arr m c 3
  have e4 : Cout m c = WExit m c (Proc.devRef .tc (Pipeline.arrRef spec0 4)) := exit_arr m c 4
  unfold WEnd
  rw [show (List.flatten [hostOps1 (F := Ideal)]) = hostOps1 from by simp only [List.flatten_cons, List.flatten_nil, List.append_nil]]
  refine h.trans ?_
  rw [e3, e4]

/-- The kernel's result, as a buffer of the scalar shape. -/
abbrev resK (c : Dev nD) : S_.Idx → EReal := fun _ => Cert.T2TLoss.kernelLoss (Lt m c) (Xt m c)

theorem result (c : Dev nD) : WEnd m c (Proc.devRef .tc main_v9) = resK m c := by
  rw [end_v9]
  funext i
  haveI : Subsingleton S_.Idx := ⟨fun a b => funext fun d => d.elim0⟩
  rw [Subsingleton.elim i ix0]
  exact tail_eq_kernelLoss m c

/-- The idealized kernel program runs, returns its loss of the two tables, and leaves both tables unchanged. -/
theorem run_value : θ_run (defs (F := Ideal)) (onTc (τ := τ) (main (F := Ideal))) ⟨m, fun _ => 0, ρ⟩ (fun r => ∀ c : Dev nD,
      r.2.mem ((c.tc : Thread nD τ).loc main_v9) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨((h c).2 main_v9 v9_rest).trans (result m c),
      ((h c).2 main_arg0 arg0_rest).trans (end_arg0 m c), ((h c).2 main_arg1 arg1_rest).trans (end_arg1 m c)⟩)
    (run_main m ρ)

end Cert.KernelIdeal.Body

end
-- ==== Proof.RefBody.lean ====
/-
  The reference kernel's body at one grid point, run on whole staging buffers.

  The body loads a block of 512 rows of the first table (x0), the same rows of the second table (x1), the whole first
  table (x2) and the whole second table (x3); it loads its output buffer and discards the value; it stores the rows'
  loss into the output buffer. The store covers the whole buffer, so afterwards the buffer reads as the stored value;
  a load of a whole buffer reads its contents. The four input buffers are handed back as found.
-/
import proofs.«152175_g2000206405548727_pallasbulk_867_2_alg».proof.Proof.Gen.ReferenceIdeal.Launch
import proofs.«152175_g2000206405548727_pallasbulk_867_2_alg».proof.Proof.Gen.ReferenceIdeal.Skeleton
import proofs.«152175_g2000206405548727_pallasbulk_867_2_alg».proof.Proof.Gen.ReferenceIdeal.Points
import proofs.«152175_g2000206405548727_pallasbulk_867_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen

variable {F : FTy → Type} [FloatOps F]

local notation "𝕄" => MT nD τ sig Unit (Elt F) ℕ (UR sig nD τ) ℕ

/-- A load of a whole buffer through the zero-offset rectangle reads what the buffer holds. -/
theorem readAt_whole {S : Shape} {e : EltTy} (a : Memref sig .tc .vmem S e) (ha : a.IsWhole) {off : Fin S.rank → Nat}
    (h : off = fun _ => 0) (inb : ∀ x, off x + S.size x ≤ S.size x) (X : Vec F S e) :
    View.readAt (Elt F) a.view (Rect.unit off S.size inb).toLoadRect (ha.unread X) = X := by
  rw [View.readAt_eq_ld, ha.read_unread]; exact View.ld_unit_zero h inb X

set_option maxHeartbeats 1000000 in
/-- The body at any point: the output buffer, whatever it held, ends holding the rows' loss. -/
theorem run (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S512x1 .f32) (harg5 : arg5.IsWhole)
    (x0 x1 : Vec F S512x1024 .f32) (x2 x3 : Vec F S2048x1024 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0__t2t_tile_kernel i arg1 harg1 arg2 harg2 arg3 harg3 arg4 harg4 arg5 harg5) K := by
  simp only [cc0__t2t_tile_kernel_eq_skeleton]; unfold cc0__t2t_tile_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2
  obtain rfl := harg4.eq_unread hf3
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H4
  ipureintro
  (try sl_unfold_words)
  rw [View.read_writes_whole_last _ _ View.zero2, readAt_whole arg1 harg1 View.zero2, readAt_whole arg2 harg2 View.zero2,
    readAt_whole arg3 harg3 View.zero2, readAt_whole arg4 harg4 View.zero2]

end Cert.ReferenceIdeal.Body

end
-- ==== Proof.RefData.lean ====
/-
  The reference kernel's pipeline: its proof data and the body obligation.

  The grid has four points. At point t the pipeline hands the body the t-th block of 512 rows of each table (windows 0
  and 1, fetched at every point) and the two whole tables (windows 2 and 3, fetched at the first point and kept), and
  writes back the block of 512 losses the body stored (window 4). An input's staging buffer holds its block of the
  array whenever the body runs, fetched at that point or not; the body hands the four inputs back as found and leaves
  the output buffer at the losses computed from the four blocks. Nothing is carried between points, so the invariant
  is the same at every point.
-/
import proofs.«152175_g2000206405548727_pallasbulk_867_2_alg».proof.Proof.RefBody

set_option maxRecDepth 16384

noncomputable section

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- The core's buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body each input's buffer at its block
    and the output's at the losses of the four blocks; the same invariant at every point; each table, staged by two
    windows, held by the one at the left half and by the other at the right half of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (iblk m c 0 t) (iblk m c 1 t) (iblk m c 2 t) (iblk m c 3 t)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay1 (iblk m c 0 t) (iblk m c 1 t) (iblk m c 2 t) (iblk m c 3 t) := by dsimp only [dats]

/-- The share each window holds its array at: a table staged by two windows is split between them. -/
theorem q0_0 (c : Dev nD) : (dats m 0 c).q 0 = fullShare.left := by dsimp only [dats]
theorem q0_1 (c : Dev nD) : (dats m 0 c).q 1 = fullShare.left := by dsimp only [dats]
theorem q0_2 (c : Dev nD) : (dats m 0 c).q 2 = fullShare.right := by dsimp only [dats]
theorem q0_3 (c : Dev nD) : (dats m 0 c).q 3 = fullShare.right := by dsimp only [dats]
theorem q0_4 (c : Dev nD) : (dats m 0 c).q 4 = fullShare := by dsimp only [dats]

/-! ## Each input's buffer holds its block whenever the body runs

An input is never idle and never cut, and the body leaves its block in place; so a point that does not fetch the window
finds what the point before left, which is the block there, and the block index has not moved. -/

/-- The row block of the first table, fetched at every point. -/
theorem before0_0 (c : Dev nD) (t : Fin cfg0.N) (d) : (dats m 0 c).before 0 t d = iblk m c 0 t := by
  have hkeep : ∀ s, (cfg0.win 0).cut (cfg0.grid.coords s) ((dats m 0 c).after 0 s) = (dats m 0 c).blockOf 0 s := fun s => by
    rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl

/-- The row block of the second table, fetched at every point. -/
theorem before0_1 (c : Dev nD) (t : Fin cfg0.N) (d) : (dats m 0 c).before 1 t d = iblk m c 1 t := by
  have hkeep : ∀ s, (cfg0.win 1).cut (cfg0.grid.coords s) ((dats m 0 c).after 1 s) = (dats m 0 c).blockOf 1 s := fun s => by
    rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl

/-- The whole first table, fetched at the first point and kept. -/
theorem before0_2 (c : Dev nD) (t : Fin cfg0.N) (d) : (dats m 0 c).before 2 t d = iblk m c 2 t := by
  have hkeep : ∀ s, (cfg0.win 2).cut (cfg0.grid.coords s) ((dats m 0 c).after 2 s) = (dats m 0 c).blockOf 2 s := fun s => by
    rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl

/-- The whole second table, fetched at the first point and kept. -/
theorem before0_3 (c : Dev nD) (t : Fin cfg0.N) (d) : (dats m 0 c).before 3 t d = iblk m c 3 t := by
  have hkeep : ∀ s, (cfg0.win 3).cut (cfg0.grid.coords s) ((dats m 0 c).after 3 s) = (dats m 0 c).blockOf 3 s := fun s => by
    rw [after0_3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl

/-! ## The body obligation -/

/-- Each window's current staging memref at point `t`, as the pipeline passes it to the body. -/
abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S2048x1024 .f32 := win0_2.stage (cfg0.slots t 2)
abbrev ms3 (t : Fin cfg0.N) : Memref sig .tc .vmem S2048x1024 .f32 := win0_3.stage (cfg0.slots t 3)
abbrev ms4 (t : Fin cfg0.N) : Memref sig .tc .vmem S512x1 .f32 := win0_4.stage (cfg0.slots t 4)

/-- What the body is called with at point `t`: the invariant, what the core owes, and every window's buffer at what
    it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1000000 in
/-- The body at any point: the inputs' buffers hold their blocks, the output's buffer holds something; the body's run
    on whole buffers applies, and leaves the output's buffer at the losses of the four blocks. The invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0 t) fullShare ((dats m 0 c).after 0 t) from rfl, after0_0]
  rw [show (dats m 0 c).leavesExact 1 t = owns (c : Thread nD τ) (ms1 t) fullShare ((dats m 0 c).after 1 t) from rfl, after0_1]
  rw [show (dats m 0 c).leavesExact 2 t = owns (c : Thread nD τ) (ms2 t) fullShare ((dats m 0 c).after 2 t) from rfl, after0_2]
  rw [show (dats m 0 c).leavesExact 3 t = owns (c : Thread nD τ) (ms3 t) fullShare ((dats m 0 c).after 3 t) from rfl, after0_3]
  rw [show (dats m 0 c).leavesExact 4 t = owns (c : Thread nD τ) (ms4 t) fullShare ((dats m 0 c).after 4 t) from rfl, after0_4]
  iintro ⟨HΦ, Ho, ⟨%d0, H0⟩, ⟨%d1, H1⟩, ⟨%d2, H2⟩, ⟨%d3, H3⟩, ⟨%d4, H4⟩⟩
  iapply (run c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant is handed back as it is. -/
theorem hout (c : Dev nD) : (dats m 0 c).Φ (Fin.last cfg0.N) ⊢ Pipeline.ΦA spec0 c := by
  rw [show (dats m 0 c).Φ (Fin.last cfg0.N) = Pipeline.ΦA spec0 c from rfl]

end Cert.ReferenceIdeal.Body

end
-- ==== Proof.RefArrays.lean ====
/-
  The reference's windows and the buffers behind them.

  Five windows look at three buffers: each table through TWO windows (a block of rows and the whole table), and the
  output. The pipeline holds one points-to per window; the two windows on a table hold the left and the right half of
  its share. Held together at the same contents, the halves are the whole buffer again. So the three buffers, each
  whole, are exactly the five windows' arrays, in both directions.
-/
import proofs.«152175_g2000206405548727_pallasbulk_867_2_alg».proof.Proof.RefData

set_option maxRecDepth 16384

noncomputable section

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen

variable {F : FTy → Type} [FloatOps F]

local notation "𝕄" => MT nD τ sig Unit (Elt F) ℕ (UR sig nD τ) ℕ

variable (m : (ℓ : Loc nD τ sig) → Buf (Elt F) ℓ)

theorem arrRefs_eq : Finset.univ.image (Pipeline.arrRef (spec0)) = [main_arg0, main_arg1, main_v0].toFinset := by decide

theorem share0 (c : Dev nD) : (dats m 0 c).share 0 = fullShare.left := by unfold Dat.share; rfl
theorem share1 (c : Dev nD) : (dats m 0 c).share 1 = fullShare.left := by unfold Dat.share; rfl
theorem share2 (c : Dev nD) : (dats m 0 c).share 2 = fullShare.right := by unfold Dat.share; rfl
theorem share3 (c : Dev nD) : (dats m 0 c).share 3 = fullShare.right := by unfold Dat.share; rfl
theorem share4 (c : Dev nD) : (dats m 0 c).share 4 = fullShare := by unfold Dat.share; rfl

theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem arrays_chain (c : Dev nD) (G : (w : Fin cfg0.W) → Buf (Elt F) ((cfg0.win w).arr.view.loc (c.tc : Thread nD τ))) :
    (dats m 0 c).arrays G = iprop((((c.tc : Thread nD τ).loc (Pipeline.arrRef spec0 0)) ↦{fullShare.left} G 0)
      ∗ (((c.tc : Thread nD τ).loc (Pipeline.arrRef spec0 1)) ↦{fullShare.left} G 1)
      ∗ (((c.tc : Thread nD τ).loc (Pipeline.arrRef spec0 2)) ↦{fullShare.right} G 2)
      ∗ (((c.tc : Thread nD τ).loc (Pipeline.arrRef spec0 3)) ↦{fullShare.right} G 3)
      ∗ (((c.tc : Thread nD τ).loc (Pipeline.arrRef spec0 4)) ↦{fullShare} G 4)) := by
  rw [arrays_eq', bigSep_W0, share0, share1, share2, share3, share4]

theorem arrBufs_chain (c : Dev nD) (U : (b : Ref sig .tc) → Buf (Elt F) ((c.tc : Thread nD τ).loc b)) :
    (Pipeline.arrBufs spec0 c U : sProp 𝕄) = iprop((((c.tc : Thread nD τ).loc main_arg0) ↦{fullShare} U main_arg0)
      ∗ (((c.tc : Thread nD τ).loc main_arg1) ↦{fullShare} U main_arg1)
      ∗ (((c.tc : Thread nD τ).loc main_v0) ↦{fullShare} U main_v0)) := by
  unfold Pipeline.arrBufs
  rw [bigSep_eq_bigSepL_of_eq _ arrRefs_eq (by decide)]
  rfl

theorem arr0 : Pipeline.arrRef spec0 0 = main_arg0 := rfl
theorem arr1 : Pipeline.arrRef spec0 1 = main_arg1 := rfl
theorem arr2 : Pipeline.arrRef spec0 2 = main_arg0 := rfl
theorem arr3 : Pipeline.arrRef spec0 3 = main_arg1 := rfl
theorem arr4 : Pipeline.arrRef spec0 4 = main_v0 := rfl

/-- The distinct buffers behind the windows, each whole, are the windows' arrays at their shares: each table's buffer
    is dealt to its two windows by halves. -/
theorem arrays_of_arrBufs (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (Pipeline.arrBufs spec0 c U : sProp 𝕄) ⊢ (dats m 0 c).arrays G := by
  rw [arrays_chain, arrBufs_chain, hG 0, hG 1, hG 2, hG 3, hG 4, arr0, arr1, arr4]
  iintro ⟨H0, H1, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H1l]; · iexact H1l
  isplitl [H0r]; · iexact H0r
  isplitl [H1r]; · iexact H1r
  iexact H4

/-- And back: the two halves of each table's buffer, at the same contents, are the whole again. -/
theorem arrBufs_of_arrays (c : Dev nD) (G : (w : Fin cfg0.W) → Buf (Elt F) ((cfg0.win w).arr.view.loc (c.tc : Thread nD τ)))
    (U : (b : Ref sig .tc) → Buf (Elt F) ((c.tc : Thread nD τ).loc b)) (hG : ∀ w, G w = U (Pipeline.arrRef spec0 w)) :
    (dats m 0 c).arrays G ⊢ (Pipeline.arrBufs spec0 c U : sProp 𝕄) := by
  rw [arrays_chain, arrBufs_chain, hG 0, hG 1, hG 2, hG 3, hG 4, arr0, arr1, arr4]
  iintro ⟨H0l, H1l, H0r, H1r, H4⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  iexact H4

end Cert.ReferenceIdeal.Body

end
-- ==== Proof.RefTail.lean ====
/-
  The host operations around the reference's region.

  No host operation precedes the region. After it the host reshapes the output, sums over the classes and divides by
  their number. These operations read the output and write fresh buffers only: no window's array is written. Leaving
  the region the five windows' arrays are the three buffers whole again (each table's two halves rejoined), the host
  lines run on all the core's buffers, and afterwards the buffers are dealt back to the windows as they were.
-/
import proofs.«152175_g2000206405548727_pallasbulk_867_2_alg».proof.Proof.RefArrays

set_option maxRecDepth 16384

noncomputable section

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen

variable {F : FTy → Type} [FloatOps F]

local notation "𝕄" => MT nD τ sig Unit (Elt F) ℕ (UR sig nD τ) ℕ

variable (m : (ℓ : Loc nD τ sig) → Buf (Elt F) ℓ)

theorem hostOps1_fresh : (hostOps1 : List (HloOp τ sig (Elt F))).Forall fun op => op.fresh = ∅ := by
  simp only [List.Forall]; repeat' constructor

/-- @main is the region, then the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch unscoped buffers of the core only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no window's array. -/
theorem sfx_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The buffers' contents when the region is left: the output at what the pipeline wrote back, every other buffer as
    the region found it. -/
def WExit (c : Dev nD) : Valuation τ sig (Elt F) :=
  Function.update (V0 m c) (Proc.devRef .tc (Pipeline.arrRef spec0 4)) ((dats m 0 c).arrAt 4 cfg0.N)

/-- Every window's array at the exit is what the exit contents say of its buffer: an input's array never changed. -/
theorem exit_arr (c : Dev nD) (w : Fin cfg0.W) :
    (dats m 0 c).arrAt w cfg0.N = WExit m c (Proc.devRef .tc (Pipeline.arrRef spec0 w)) := by
  unfold WExit
  fin_cases w
  · rw [Function.update_of_ne (StableHlo.devRef_ne_of_ne (by decide))]
    exact ((dats m 0 c).arrAt_in 0 rfl _).trans (A_eq m c 0)
  · rw [Function.update_of_ne (StableHlo.devRef_ne_of_ne (by decide))]
    exact ((dats m 0 c).arrAt_in 1 rfl _).trans (A_eq m c 1)
  · rw [Function.update_of_ne (StableHlo.devRef_ne_of_ne (by decide))]
    exact ((dats m 0 c).arrAt_in 2 rfl _).trans (A_eq m c 2)
  · rw [Function.update_of_ne (StableHlo.devRef_ne_of_ne (by decide))]
    exact ((dats m 0 c).arrAt_in 3 rfl _).trans (A_eq m c 3)
  · rw [Function.update_self]; rfl

/-- The buffers' contents after the later lines. -/
abbrev WEnd (c : Dev nD) : Valuation τ sig (Elt F) := StableHlo.after (List.flatten [hostOps1]) (WExit m c)

/-- The later lines leave every window's array as it was. -/
theorem end_arr (c : Dev nD) (w : Fin cfg0.W) :
    (dats m 0 c).arrAt w cfg0.N = WEnd m c (Proc.devRef .tc (Pipeline.arrRef spec0 w)) := by
  unfold WEnd
  rw [StableHlo.after_of_forall_not_mem _ _ fun op hop => sfx_keeps op hop w]
  exact exit_arr m c w

/-- The buffers that are no window's array are at the exit as the region found them. -/
theorem rest_exit (c : Dev nD) :
    (Pipeline.unscopedRest spec0 c (V m c) : sProp 𝕄) = Pipeline.unscopedRest spec0 c (fun b => WExit m c (Proc.devRef .tc b)) := by
  unfold Pipeline.unscopedRest
  refine bigSep_congr fun b hb => ?_
  have hb' : ∀ w, Pipeline.arrRef spec0 w ≠ b := fun w e =>
    (Finset.mem_sdiff.mp hb).2 (Finset.mem_image.mpr ⟨w, Finset.mem_univ _, e⟩)
  unfold WExit
  beta_reduce
  rw [Function.update_of_ne (fun e => hb' 4 (Proc.devRef_injective _ e).symm)]

end Cert.ReferenceIdeal.Body

end
-- ==== Proof.RefRun.lean ====
/-
  The reference program's run.

  From any memory, every weakly fair execution of the program terminates without a fault; afterwards every window's
  array holds what the pipeline's proof data computes for it, and every other buffer of the core holds what the host
  lines after the region leave from the region's exit contents. The region is launched with each table's buffer
  dealt to its two windows by halves, and the host lines after it run on the buffers whole again.
-/
import proofs.«152175_g2000206405548727_pallasbulk_867_2_alg».proof.Proof.RefTail

set_option maxRecDepth 16384

noncomputable section

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The host lines after the region, from the region's exit: the windows' arrays are rejoined into whole buffers, the
    lines run, and the arrays are dealt back unchanged; every other buffer ends at the lines' result. -/
theorem htail (𝒱₀ : Variants) (c : Dev nD) (Q' : PUnit → sProp 𝕄) :
    iprop((iprop((dats m 0 c).arrays ((dats m 0 c).arrAt · cfg0.N) ∗ Pipeline.unscopedRest spec0 c (fun b => WEnd m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift 𝒱₀) (c.tc : Thread nD τ) none) Set.univ (Pipeline.chain ([hostOps1].map StableHlo.seq)) Q' := by
  have hpre : iprop((dats m 0 c).arrays ((dats m 0 c).arrAt · cfg0.N) ∗ Pipeline.unscopedRest spec0 c (V m c))
      ⊢ (StableHlo.held (c.tc : Thread nD τ) (Pipeline.ucRefs τ sig) (WExit m c) : sProp 𝕄) := by
    rw [← Pipeline.unscopedBufs_held, Pipeline.unscopedBufs_split₀ cfgs 0 winFacts₀0.arr_unscoped c, rest_exit]
    exact sep_mono (arrBufs_of_arrays m c _ _ (fun w => exit_arr m c w)) .rfl
  have hpost : (StableHlo.held (c.tc : Thread nD τ) (Pipeline.ucRefs τ sig) (WEnd m c) : sProp 𝕄)
      ⊢ iprop((dats m 0 c).arrays ((dats m 0 c).arrAt · cfg0.N) ∗ Pipeline.unscopedRest spec0 c (fun b => WEnd m c (Proc.devRef .tc b))) := by
    rw [← Pipeline.unscopedBufs_held, Pipeline.unscopedBufs_split₀ cfgs 0 winFacts₀0.arr_unscoped c]
    exact sep_mono (arrays_of_arrBufs m c _ _ (fun w => end_arr m c w)) .rfl
  rw [← List.append_nil ([hostOps1].map StableHlo.seq)]
  iintro ⟨Hk, Hb, Ha, Hz⟩
  ihave Hh := hpre $$ [Ha Hz]
  · isplitl [Ha] <;> iassumption
  iapply (Pipeline.wp_seqs_then (pcfgs (F := F)) defs₀ 𝒱₀ c (Pipeline.ucRefs τ sig) [] [hostOps1] sfx_sub sfx_fresh (WExit m c)) $$ [Hb Hh]
  · isplitl [Hb] <;> iassumption
  iintro Hb
  rw [Pipeline.chain_nil, wp_pure]
  imodintro
  iapply Hk
  icases Hb with ⟨-, H⟩
  iapply hpost
  iexact H

set_option backward.isDefEq.respectTransparency.types false in
/-- From any memory with zero counters every weakly fair execution of the program terminates; every window's array
    ends at what the proof data computes, every other unscoped buffer at what the later host lines leave. -/
theorem run_main : θ_run (defs (F := F)) (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = WEnd m c (Proc.devRef .tc b)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs m c _ (V m c) (fun w => A_eq m c w))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => WEnd m c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m Variants.none c Q')
    (QY := fun c s => ∀ b ∈ Pipeline.restRefs sig spec0, s.mem ((c.tc : Thread nD τ).loc b) = WEnd m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => WEnd m c (Proc.devRef .tc b)) s')
      isplitl [HU] <;> iassumption)
    (hQ := fun s h c => ⟨(h c).1, (h c).2.2⟩)

end Cert.ReferenceIdeal.Body

end
-- ==== Proof.RefValue.lean ====
/-
  The reference program's arrays after its four points, as functions of the two tables.

  L and X are the two [2048, 1024] tables as launched. At point t the body's four loaded blocks are rows
  512·t … 512·t + 511 of L and of X and the whole of L and of X; the value it stores at row p of its block is the
  specification's loss of class 512·t + p, once the stored value is known as a formula in the blocks' entries (that
  formula is taken here as a hypothesis, named PayLaw, and discharged where the payload is read at an index). The
  output's four blocks tile its array and every point writes its block back, so the array ends holding the column of
  losses; the input arrays are never written and end as launched.
-/
import proofs.«152175_g2000206405548727_pallasbulk_867_2_alg».proof.Proof.RefData
import proofs.«152175_g2000206405548727_pallasbulk_867_2_alg».proof.Proof.LossSpec
import Idealize.ShloMosaic.Lib.ValueIdx
import Idealize.ShloMosaic.Lib.ValueIdxCoords
import Idealize.ShloMosaic.Lib.Pipeline.Value

set_option maxRecDepth 16384

noncomputable section

namespace Cert.ReferenceIdeal.Value'

open Cert.ReferenceIdeal Cert.ReferenceIdeal.Gen Cert.ReferenceIdeal.Body
open Idealize.ShloMosaic Idealize.ShloMosaic.TcCoe Idealize.SL.Sem Idealize.ShloMosaic.ValueIdx
open Idealize.ShloMosaic.Pipeline (Dat)
open Cert.T2TLoss

variable (m : (ℓ : Loc nD τ sig) → Buf (Elt Ideal) ℓ)

/-! ## The two tables as the launch finds them -/

/-- The first table, by row and column. -/
def L (c : Dev nD) : Tab := fun r k => m ((c : Thread nD τ).loc main_arg0) (ix2 r k)
/-- The second table. -/
def X (c : Dev nD) : Tab := fun r k => m ((c : Thread nD τ).loc main_arg1) (ix2 r k)

/-- No host operation precedes the region: it finds the tables as launched. -/
theorem V_arg0 (c : Dev nD) : V m c main_arg0 = m ((c : Thread nD τ).loc main_arg0) := rfl
theorem V_arg1 (c : Dev nD) : V m c main_arg1 = m ((c : Thread nD τ).loc main_arg1) := rfl

/-! ## The windows' block indices, decided over the four points -/

/-- Window 0 moves down the first table one block of rows per point. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 moves down the second table the same way. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 2 is the whole first table at every point. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3 is the whole second table at every point. -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The output window moves down the column of losses one block per point. -/
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-! ## The blocks read at an index

A block's coordinate in its array is the block index times the block's extent plus the coordinate inside the block. -/

/-- Row p of point t's block of the first table is row 512·t + p of the table. -/
theorem iblk0_apply (c : Dev nD) (t : Fin cfg0.N) (p : Fin 512) (k : Fin 1024) :
    iblk m c 0 t (ix2 p k) = L m c (rowOf t p) k := by
  obtain ⟨e0, e1⟩ := index0 t
  unfold iblk L
  rw [View.read_apply]
  show V m c main_arg0 _ = m ((c : Thread nD τ).loc main_arg0) _
  unfold V
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- The same rows of the second table. -/
theorem iblk1_apply (c : Dev nD) (t : Fin cfg0.N) (p : Fin 512) (k : Fin 1024) :
    iblk m c 1 t (ix2 p k) = X m c (rowOf t p) k := by
  obtain ⟨e0, e1⟩ := index1 t
  unfold iblk X
  rw [View.read_apply]
  show V m c main_arg1 _ = m ((c : Thread nD τ).loc main_arg1) _
  unfold V
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

/-- The whole first table, at every point. -/
theorem iblk2_apply (c : Dev nD) (t : Fin cfg0.N) (p : Fin 2048) (k : Fin 1024) :
    iblk m c 2 t (ix2 p k) = L m c p k := by
  obtain ⟨e0, e1⟩ := index2 t
  unfold iblk L
  rw [View.read_apply]
  show V m c main_arg0 _ = m ((c : Thread nD τ).loc main_arg0) _
  unfold V
  congr 1
  funext a
  apply Fin.ext
  match a with
  | ⟨0, _⟩ => show win0_2.index t (0 : Fin 2) * 2048 + 1 * p.val = p.val; rw [e0]; omega
  | ⟨1, _⟩ => show win0_2.index t (1 : Fin 2) * 1024 + 1 * k.val = k.val; rw [e1]; omega

/-- The whole second table, at every point. -/
theorem iblk3_apply (c : Dev nD) (t : Fin cfg0.N) (p : Fin 2048) (k : Fin 1024) :
    iblk m c 3 t (ix2 p k) = X m c p k := by
  obtain ⟨e0, e1⟩ := index3 t
  unfold iblk X
  rw [View.read_apply]
  show V m c main_arg1 _ = m ((c : Thread nD τ).loc main_arg1) _
  unfold V
  congr 1
  funext a
  apply Fin.ext
  match a with
  | ⟨0, _⟩ => show win0_3.index t (0 : Fin 2) * 2048 + 1 * p.val = p.val; rw [e0]; omega
  | ⟨1, _⟩ => show win0_3.index t (1 : Fin 2) * 1024 + 1 * k.val = k.val; rw [e1]; omega

/-! ## The input arrays after the run: never written -/

theorem kept0 (c : Dev nD) : (dats m 0 c).arrAt 0 cfg0.N = m ((c : Thread nD τ).loc main_arg0) :=
  ((dats m 0 c).arrAt_in 0 rfl _).trans ((A_eq m c 0).trans (V_arg0 m c))
theorem kept1 (c : Dev nD) : (dats m 0 c).arrAt 1 cfg0.N = m ((c : Thread nD τ).loc main_arg1) :=
  ((dats m 0 c).arrAt_in 1 rfl _).trans ((A_eq m c 1).trans (V_arg1 m c))
theorem kept2 (c : Dev nD) : (dats m 0 c).arrAt 2 cfg0.N = m ((c : Thread nD τ).loc main_arg0) :=
  ((dats m 0 c).arrAt_in 2 rfl _).trans ((A_eq m c 2).trans (V_arg0 m c))
theorem kept3 (c : Dev nD) : (dats m 0 c).arrAt 3 cfg0.N = m ((c : Thread nD τ).loc main_arg1) :=
  ((dats m 0 c).arrAt_in 3 rfl _).trans ((A_eq m c 3).trans (V_arg1 m c))

/-! ## The output array after the run -/

/-- The column of losses the specification assigns to the two tables. -/
def G (c : Dev nD) : Buf (Elt Ideal) ((cfg0.win 4).arr.view.loc (c.tc : Thread nD τ)) :=
  fun (i : S2048x1.Idx) => refRow (L m c) (X m c) (i 0)

/-- An index of the output array is in point `t`'s block iff each coordinate is in the block's range on its axis. -/
theorem mem_blk4 (t : Fin cfg0.N) (i : S2048x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0).slice (win0_4.rect t)).set ↔ _
  rw [View.set_slice_whole, Rect.mem_set_unit]
  exact Iff.rfl

/-- Every row of the output is in the block of the point its row block belongs to. -/
theorem cover4 (i : S2048x1.Idx) : ∃ t : Fin cfg0.N, (cfg0.win 4).flush t = true ∧ i ∈ ((cfg0.win 4).blk t).view.set := by
  have hi0 : (i 0).val < 2048 := (i 0).isLt
  have hi1 : (i 1).val < 1 := (i 1).isLt
  have hN : cfg0.N = 4 := N_0
  let t : Fin cfg0.N := ⟨(i 0).val / 512, by omega⟩
  obtain ⟨e0, e1⟩ := index4 t
  have ht : t.val = (i 0).val / 512 := rfl
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- The body's stored value at a row, as a formula in its four loaded blocks' entries. -/
abbrev PayLaw : Prop := ∀ (v0 v1 : Vec Ideal S512x1024 .f32) (v2 v3 : Vec Ideal S2048x1024 .f32) (p : Fin 512),
  k0_pay1 (F := Ideal) v0 v1 v2 v3 (ix2 p 0)
    = half * ((lse (fun j => ∑ k : Fin 1024, (v0 (ix2 p k) * sc) * v3 (ix2 j k)) - ∑ k : Fin 1024, (v0 (ix2 p k) * sc) * v1 (ix2 p k))
        + (lse (fun j => ∑ k : Fin 1024, (v1 (ix2 p k) * sc) * v2 (ix2 j k)) - ∑ k : Fin 1024, (v0 (ix2 p k) * sc) * v1 (ix2 p k)))

/-- What point `t` writes back is block `t` of the specification's column. -/
theorem flushed4_eq (hpay : PayLaw) (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨e0, e1⟩ := index4 t
  funext j
  obtain ⟨p, u, rfl⟩ : ∃ (p : Fin 512) (u : Fin 1), j = ix2 p u := ⟨j 0, j 1, eq_ix2 j⟩
  obtain rfl : u = 0 := Subsingleton.elim _ _
  rw [View.read_apply]
  have hr : (((cfg0.win 4).blk t).view.emb (ix2 p (0 : Fin 1))) (0 : Fin 2) = rowOf t p :=
    Fin.ext (by show win0_4.index t (0 : Fin 2) * 512 + 1 * p.val = t.val * 512 + p.val; rw [e0]; omega)
  show k0_pay1 (F := Ideal) (iblk m c 0 t) (iblk m c 1 t) (iblk m c 2 t) (iblk m c 3 t) (ix2 p 0)
    = refRow (L m c) (X m c) ((((cfg0.win 4).blk t).view.emb (ix2 p (0 : Fin 1))) (0 : Fin 2))
  rw [hr, hpay]
  simp only [iblk0_apply, iblk1_apply, iblk2_apply, iblk3_apply]
  rfl

/-- The output array after the four points: row r holds the specification's loss of class r. -/
theorem arrOut_of (hpay : PayLaw) (c : Dev nD) : (dats m 0 c).arrAt 4 cfg0.N = G m c :=
  (dats m 0 c).arrAt_eq_of_cover 4 (G m c) (fun t _ => flushed4_eq m hpay c t) cover4

theorem rowOut_of (hpay : PayLaw) (c : Dev nD) (r : Fin 2048) :
    (dats m 0 c).arrAt 4 cfg0.N (ix2 r 0) = refRow (L m c) (X m c) r := by
  rw [arrOut_of m hpay c]; rfl

end Cert.ReferenceIdeal.Value'

end
-- ==== Proof.RefPayloads.lean ====
/-
  The reference body's stored value, read at an index, on the extended reals.

  The body takes a block of 512 rows of each table (A, A') and both whole tables (B', B), all f32, and scales the two
  blocks by the word c. On the extended reals the matrix product into a zero accumulator is the sum over the
  contracted coordinate, a reduction along an axis is the sum (or the maximum folded from −∞) over that axis's
  coordinate, a vector kept as a one-column matrix and repeated along the rows reads the vector at the row. The value
  stored for row p is therefore

    ½ · ((lse (j ↦ ∑ k, (A(p,k)·c)·B(j,k)) − ∑ k, (A(p,k)·c)·A'(p,k))
        + (lse (j ↦ ∑ k, (A'(p,k)·c)·B'(j,k)) − ∑ k, (A(p,k)·c)·A'(p,k))),

  where lse u = m + log (∑ j, exp (u j − m)) with m the maximum of u taken from −∞. The right-hand side keeps the
  operations in the order the body applies them.
-/
import proofs.«152175_g2000206405548727_pallasbulk_867_2_alg».proof.Proof.Gen.ReferenceIdeal.Skeleton
import proofs.«152175_g2000206405548727_pallasbulk_867_2_alg».proof.Proof.LossSpec
import Idealize.ShloMosaic.PureOps.Ideal.Laws
import Idealize.ShloMosaic.Lib.ValueIdx
import Idealize.ShloMosaic.Lib.Pipeline.Value
import proofs.«152175_g2000206405548727_pallasbulk_867_2_alg».proof.Proof.LibColumnLayout

noncomputable section

namespace Cert.ReferenceIdeal.Payloads

open Idealize.ShloMosaic Idealize.ShloMosaic.ValueIdx Cert.ReferenceIdeal Cert.ReferenceIdeal.Gen

/-! ## The contraction's index maps

The matrix product contracts axis 1 of both operands (the second operand is used transposed): at result
index (p, j) and contraction coordinate k the left operand is read at (p, k) and the right one at (j, k). -/

theorem contr_rank : dot_S512x1024_S2048x1024_S512x2048_1_1_0_0_n_n.contr.rank = 1 := rfl

theorem contr_size :
    dot_S512x1024_S2048x1024_S512x2048_1_1_0_0_n_n.contr.size ⟨0, by rw [contr_rank]; exact Nat.one_pos⟩ = 1024 := rfl

theorem lhs_ix (p : Fin 512) (j : Fin 2048) (k : Fin 1024) :
    dot_S512x1024_S2048x1024_S512x2048_1_1_0_0_n_n.lhsIdx (ix2 p j)
      ((contrEquiv1 dot_S512x1024_S2048x1024_S512x2048_1_1_0_0_n_n 1024 contr_rank contr_size).symm k) = ix2 p k := by
  funext a
  match a with
  | ⟨0, _⟩ =>
    apply Fin.ext
    simp [DotDims.lhsIdx, dot_S512x1024_S2048x1024_S512x2048_1_1_0_0_n_n]
    rfl
  | ⟨1, _⟩ =>
    apply Fin.ext
    refine (DotDims.lhsIdx_val_of_single _ (cl := 1) rfl _ _).trans ?_
    exact contrEquiv1_symm_val _ _ _ _ k

theorem rhs_ix (p : Fin 512) (j : Fin 2048) (k : Fin 1024) :
    dot_S512x1024_S2048x1024_S512x2048_1_1_0_0_n_n.rhsIdx (ix2 p j)
      ((contrEquiv1 dot_S512x1024_S2048x1024_S512x2048_1_1_0_0_n_n 1024 contr_rank contr_size).symm k) = ix2 j k := by
  funext a
  match a with
  | ⟨0, _⟩ =>
    apply Fin.ext
    simp [DotDims.rhsIdx, dot_S512x1024_S2048x1024_S512x2048_1_1_0_0_n_n]
    rfl
  | ⟨1, _⟩ =>
    apply Fin.ext
    refine (DotDims.rhsIdx_val_of_single _ (cr := 1) rfl _ _).trans ?_
    exact contrEquiv1_symm_val _ _ _ _ k

/-- The product into a zero accumulator, read at (p, j): the sum over the contracted coordinate. -/
theorem matmul_zero_apply {φ₁ φ₂ : FTy} (l : FVec Ideal S512x1024 φ₁) (r : FVec Ideal S2048x1024 φ₂) (p : Fin 512) (j : Fin 2048) :
    matmul (F := Ideal) dot_S512x1024_S2048x1024_S512x2048_1_1_0_0_n_n none l r (constant (F := Ideal) S512x2048 .f32 0x00000000#32) (ix2 p j)
      = ∑ k : Fin 1024, l (ix2 p k) * r (ix2 j k) := by
  refine (Ideal.matmul_constant_zero_apply _ none l r (ix2 p j)).trans ?_
  rw [← Equiv.sum_comp (contrEquiv1 dot_S512x1024_S2048x1024_S512x2048_1_1_0_0_n_n 1024 contr_rank contr_size).symm]
  exact Finset.sum_congr rfl fun k _ => by rw [lhs_ix p j k, rhs_ix p j k]

/-! ## Reductions along one axis of a matrix, read at a coordinate -/

/-- The source index over row `p` with `k` inserted on axis 1 is (p, k). -/
theorem lift_row {n m : Nat} (h : (⟨2, ![n, m]⟩ : Shape).Reduces [1] ⟨1, ![n]⟩) (p : Fin n) (k : Fin m) :
    h.lift (ix1 p) k = ix2 p k := by
  funext a
  match a with
  | ⟨0, _⟩ => rfl
  | ⟨1, _⟩ => rfl

/-- The source index over column `j` with `p` inserted on axis 0 is (p, j). -/
theorem lift_col {n m : Nat} (h : (⟨2, ![n, m]⟩ : Shape).Reduces [0] ⟨1, ![m]⟩) (j : Fin m) (p : Fin n) :
    h.lift (ix1 j) p = ix2 p j := by
  funext a
  match a with
  | ⟨0, _⟩ => rfl
  | ⟨1, _⟩ => rfl

/-- A sum along the rows' axis, kept as a one-column matrix, read at row `p`. -/
theorem rowsum_column_apply {n m : Nat} (x : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction (F := Ideal) .add [1] ⟨1, ![n]⟩ x 0x00000000#32 h hφ hacc) hc (ix2 p u)
      = ∑ k : Fin m, x (ix2 p k) := by
  refine (ColumnLayout.shapeCast_a_a1_apply _ hc p u).trans ?_
  refine (Ideal.multiReduction_add_single x _ h hφ hacc (ix1 p)).trans ?_
  exact Finset.sum_congr rfl fun k _ => congrArg x (lift_row h p k)

/-- A maximum along the rows' axis, folded from the word of −∞ and kept as a one-column matrix, read at row `p`. -/
theorem rowmax_column_apply {n m : Nat} (x : FVec Ideal ⟨2, ![n, m]⟩ .f32) (h : (⟨2, ![n, m]⟩ : Shape).Reduces [1] ⟨1, ![n]⟩)
    (hφ : FKind.Formats .f32) (hacc : (0xFF800000#32 : BitVec 32) = FKind.maximumf.neutral .f32 hφ)
    (hc : (⟨1, ![n]⟩ : Shape).ShapeCasts ⟨2, ![n, 1]⟩) (p : Fin n) (u : Fin 1) :
    shapeCast ⟨2, ![n, 1]⟩ (multiReduction (F := Ideal) .maximumf [1] ⟨1, ![n]⟩ x 0xFF800000#32 h hφ hacc) hc (ix2 p u)
      = (Finset.univ : Finset (Fin m)).fold max (Ideal.ofBits .f32 0xFF800000#32) (fun j => x (ix2 p j)) := by
  refine (ColumnLayout.shapeCast_a_a1_apply _ hc p u).trans ?_
  refine (Ideal.multiReduction_maximumf_single x _ h hφ hacc (ix1 p)).trans ?_
  exact congrArg (fun f : Fin m → EReal => (Finset.univ : Finset (Fin m)).fold max (Ideal.ofBits .f32 0xFF800000#32) f)
    (funext fun j => congrArg x (lift_row h p j))

/-- A row's log-sum-exp as the body computes it — the row's maximum m taken from −∞, then m + log (∑ j, exp (x j − m)),
    every intermediate kept as a one-column matrix — read at row `p`. -/
theorem lse_column_apply {n : Nat} (x : FVec Ideal ⟨2, ![n, 2048]⟩ .f32)
    (hmax hadd : (⟨2, ![n, 2048]⟩ : Shape).Reduces [1] ⟨1, ![n]⟩)
    (hφ₁ : FKind.Formats .f32) (hacc₁ : (0xFF800000#32 : BitVec 32) = FKind.maximumf.neutral .f32 hφ₁)
    (hφ₂ : FKind.Formats .f32) (hacc₂ : (0x00000000#32 : BitVec 32) = FKind.add.neutral .f32 hφ₂)
    (hc₁ hc₂ : (⟨1, ![n]⟩ : Shape).ShapeCasts ⟨2, ![n, 1]⟩) (hb : (⟨2, ![n, 1]⟩ : Shape).Broadcasts ⟨2, ![n, 2048]⟩)
    (p : Fin n) (u : Fin 1) :
    addf (shapeCast ⟨2, ![n, 1]⟩ (multiReduction (F := Ideal) .maximumf [1] ⟨1, ![n]⟩ x 0xFF800000#32 hmax hφ₁ hacc₁) hc₁)
        (log (shapeCast ⟨2, ![n, 1]⟩ (multiReduction (F := Ideal) .add [1] ⟨1, ![n]⟩
          (exp (subf x (broadcastTo ⟨2, ![n, 2048]⟩
            (shapeCast ⟨2, ![n, 1]⟩ (multiReduction (F := Ideal) .maximumf [1] ⟨1, ![n]⟩ x 0xFF800000#32 hmax hφ₁ hacc₁) hc₁) hb)))
          0x00000000#32 hadd hφ₂ hacc₂) hc₂)) (ix2 p u)
      = Cert.T2TLoss.lse (fun j => x (ix2 p j)) := by
  unfold Cert.T2TLoss.lse
  refine congrArg₂ (fun a b : EReal => a + Ideal.log b) ?_ ?_
  · exact rowmax_column_apply x hmax hφ₁ hacc₁ hc₁ p u
  · refine (rowsum_column_apply _ hadd hφ₂ hacc₂ hc₂ p u).trans ?_
    refine Finset.sum_congr rfl fun j _ => ?_
    refine congrArg (fun a : EReal => Ideal.exp (x (ix2 p j) - a)) ?_
    refine (ColumnLayout.broadcastTo_a1_ab_apply _ hb p j).trans ?_
    exact rowmax_column_apply x hmax hφ₁ hacc₁ hc₁ p 0

/-! ## Elementwise operations read at an index (all by unfolding) -/

/-- A block scaled by a broadcast word, the word on the left … -/
theorem scaleL_apply {s : Shape} (c : BitVec 32) (x : FVec Ideal s .f32) (i : s.Idx) :
    mulf (broadcast s (Scalar.ofBits (F := Ideal) .f32 c)) x i = (Ideal.ofBits .f32 c * x i : EReal) := rfl

/-- … and on the right. -/
theorem scaleR_apply {s : Shape} (c : BitVec 32) (x : FVec Ideal s .f32) (i : s.Idx) :
    mulf x (broadcast s (Scalar.ofBits (F := Ideal) .f32 c)) i = (x i * Ideal.ofBits .f32 c : EReal) := rfl

/-! ## The body's stored value -/

section
variable (v0 v1 : Vec Ideal S512x1024 .f32) (v2 v3 : Vec Ideal S2048x1024 .f32) (p : Fin 512)

/-- The similarities of row `p` of a scaled block with the rows of a table. -/
theorem sims_apply (a : FVec Ideal S512x1024 .f32) (b : FVec Ideal S2048x1024 .f32) (c : BitVec 32) (j : Fin 2048) :
    matmul (F := Ideal) dot_S512x1024_S2048x1024_S512x2048_1_1_0_0_n_n none
        (mulf a (broadcast S512x1024 (Scalar.ofBits (F := Ideal) .f32 c))) b (constant (F := Ideal) S512x2048 .f32 0x00000000#32) (ix2 p j)
      = ∑ k : Fin 1024, (a (ix2 p k) * Ideal.ofBits .f32 c) * b (ix2 j k) := by
  refine (matmul_zero_apply _ b p j).trans ?_
  exact Finset.sum_congr rfl fun k _ => congrArg (fun t : EReal => t * b (ix2 j k)) (scaleR_apply c a (ix2 p k))

/-- The diagonal term of row `p`, kept as a one-column matrix. -/
theorem diag_apply (a b : FVec Ideal S512x1024 .f32) (c : BitVec 32) (h : S512x1024.Reduces [1] S512)
    (hφ : FKind.Formats .f32) (hacc : (0x00000000#32 : BitVec 32) = FKind.add.neutral .f32 hφ) (hc : S512.ShapeCasts S512x1) (u : Fin 1) :
    shapeCast S512x1 (multiReduction (F := Ideal) .add [1] S512
        (mulf (mulf a (broadcast S512x1024 (Scalar.ofBits (F := Ideal) .f32 c))) b) 0x00000000#32 h hφ hacc) hc (ix2 p u)
      = ∑ k : Fin 1024, (a (ix2 p k) * Ideal.ofBits .f32 c) * b (ix2 p k) := by
  refine (rowsum_column_apply _ h hφ hacc hc p u).trans ?_
  refine Finset.sum_congr rfl fun k _ => ?_
  refine (mulf_apply _ _ _).trans ?_
  exact congrArg (fun t : EReal => t * b (ix2 p k)) (scaleR_apply c a (ix2 p k))

/-- Row `p`'s loss: half of (the log-sum-exp of the row's similarities minus the diagonal term) plus (the same from
    the other table's scaled row, minus the same diagonal term). -/
theorem pay1_apply :
    k0_pay1 (F := Ideal) v0 v1 v2 v3 (ix2 p 0)
      = Cert.T2TLoss.half *
        ((Cert.T2TLoss.lse (fun j => ∑ k : Fin 1024, (v0 (ix2 p k) * Cert.T2TLoss.sc) * v3 (ix2 j k))
            - ∑ k : Fin 1024, (v0 (ix2 p k) * Cert.T2TLoss.sc) * v1 (ix2 p k))
          + (Cert.T2TLoss.lse (fun j => ∑ k : Fin 1024, (v1 (ix2 p k) * Cert.T2TLoss.sc) * v2 (ix2 j k))
            - ∑ k : Fin 1024, (v0 (ix2 p k) * Cert.T2TLoss.sc) * v1 (ix2 p k))) := by
  unfold k0_pay1
  refine (scaleL_apply _ _ _).trans ?_
  refine congrArg (fun a : EReal => Cert.T2TLoss.half * a) ?_
  refine (addf_apply _ _ _).trans ?_
  refine congrArg₂ (fun a b : EReal => a + b) ?_ ?_
  · refine (subf_apply _ _ _).trans ?_
    refine congrArg₂ (fun a b : EReal => a - b) ?_ ?_
    · refine (lse_column_apply _ _ _ _ _ _ _ _ _ _ p 0).trans ?_
      exact congrArg Cert.T2TLoss.lse (funext fun j => sims_apply p v0 v3 _ j)
    · exact diag_apply p v0 v1 _ _ _ _ _ 0
  · refine (subf_apply _ _ _).trans ?_
    refine congrArg₂ (fun a b : EReal => a - b) ?_ ?_
    · refine (lse_column_apply _ _ _ _ _ _ _ _ _ _ p 0).trans ?_
      exact congrArg Cert.T2TLoss.lse (funext fun j => sims_apply p v1 v2 _ j)
    · exact diag_apply p v0 v1 _ _ _ _ _ 0

end

end Cert.ReferenceIdeal.Payloads

end
-- ==== Proof.RefValueOut.lean ====
/-
  The reference program's output array after its four points: row r holds the specification's loss of class r.

  The body's stored value read at a row is the formula in its four loaded blocks' entries; with it, what each point
  writes back is its block of the specification's column, and the four blocks tile the array.
-/
import proofs.«152175_g2000206405548727_pallasbulk_867_2_alg».proof.Proof.RefValue
import proofs.«152175_g2000206405548727_pallasbulk_867_2_alg».proof.Proof.RefPayloads

set_option maxRecDepth 16384

noncomputable section

namespace Cert.ReferenceIdeal.Value'

open Cert.ReferenceIdeal Cert.ReferenceIdeal.Gen Cert.ReferenceIdeal.Body
open Idealize.ShloMosaic Idealize.ShloMosaic.TcCoe Idealize.SL.Sem Idealize.ShloMosaic.ValueIdx
open Idealize.ShloMosaic.Pipeline (Dat)
open Cert.T2TLoss

variable (m : (ℓ : Loc nD τ sig) → Buf (Elt Ideal) ℓ)

/-- The body's stored value at a row, in the blocks' entries. -/
theorem payLaw : PayLaw := Cert.ReferenceIdeal.Payloads.pay1_apply

/-- The output array ends holding the specification's column of losses. -/
theorem arrOut (c : Dev nD) : (dats m 0 c).arrAt 4 cfg0.N = G m c := arrOut_of m payLaw c

/-- Row r of the output array is the specification's loss of class r. -/
theorem rowOut (c : Dev nD) (r : Fin 2048) :
    (dats m 0 c).arrAt 4 cfg0.N (ix2 r 0) = refRow (L m c) (X m c) r := rowOut_of m payLaw c r

end Cert.ReferenceIdeal.Value'

end
-- ==== Proof.RefEnd.lean ====
/-
  The reference program's result and frame, read off its run.

  After the region the host reshapes the output column, sums it from the zero word and divides by the word of 2048.
  The region leaves the output column at the specification's losses, so the result buffer ends at the specification's
  mean loss of the two tables. Both tables are arrays of input windows, which the pipeline never writes and the host
  lines after the region never write: they end as launched. Stated from the run's post as a hypothesis: the
  statements hold of any final state with that post.
-/
import proofs.«152175_g2000206405548727_pallasbulk_867_2_alg».proof.Proof.RefTail
import proofs.«152175_g2000206405548727_pallasbulk_867_2_alg».proof.Proof.RefValueOut
import proofs.«152175_g2000206405548727_pallasbulk_867_2_alg».proof.Proof.HostTail
import Idealize.ShloMosaic.Lib.StableHlo.Run

set_option maxRecDepth 16384

noncomputable section

namespace Cert.ReferenceIdeal.Value'

open Cert.ReferenceIdeal Cert.ReferenceIdeal.Gen Cert.ReferenceIdeal.Body
open Idealize.ShloMosaic Idealize.ShloMosaic.TcCoe Idealize.SL.Sem Idealize.ShloMosaic.ValueIdx
open Idealize.ShloMosaic.Pipeline (Dat)
open Cert.T2TLoss
open Idealize.ShloMosaic.StableHlo

variable (m : (ℓ : Loc nD τ sig) → Buf (Elt Ideal) ℓ)

variable (ρ : Dev nD → PrngReg)

/-! ## The result buffer after the host lines -/

/-- The host lines after the region, read at the result buffer: the mean of the output column as the region left it. -/
theorem end_v3 (c : Dev nD) :
    WEnd m c (Proc.devRef .tc main_v3) = refTail ((dats m 0 c).arrAt 4 cfg0.N) := by
  have h : StableHlo.after (hostOps1 (F := Ideal)) (WExit m c) (Proc.devRef .tc main_v3)
      = refTail (WExit m c (Proc.devRef .tc main_v0)) := by
    after_results; rfl
  unfold WEnd
  simp only [List.flatten_cons, List.flatten_nil, List.append_nil]
  exact h.trans (congrArg refTail (exit_arr m c 4).symm)

/-- The result is the specification's mean loss of the two tables. -/
theorem result (c : Dev nD) :
    WEnd m c (Proc.devRef .tc main_v3) = fun _ => refLoss (L m c) (X m c) := by
  rw [end_v3]
  funext i
  obtain rfl : i = ix0 := eq_ix0 i
  rw [refTail_apply]
  unfold refLoss
  simp only [rowOut]

theorem v3_rest : main_v3 ∈ Pipeline.restRefs sig spec0 := Pipeline.mem_restRefs_of main_v3 rfl (by decide)

/-! ## The frame and the value, from the run -/

/-- What the run establishes: every window's array at what the proof data computes, every other buffer at what the
    host lines after the region leave. -/
abbrev RunPost (r : PUnit × MemSt nD τ sig (Elt Ideal)) : Prop :=
  ∀ c : Dev nD,
    (∀ w, r.2.mem ((spec0 w).arr.view.loc (c.tc : Thread nD τ)) = (dats m 0 c).arrAt w cfg0.N)
    ∧ ∀ b ∈ Pipeline.restRefs sig spec0, r.2.mem ((c.tc : Thread nD τ).loc b) = WEnd m c (Proc.devRef .tc b)

/-- Both tables are windows' arrays, and an input window's array is never written: they end as launched. -/
theorem frame_of (h : θ_run (defs (F := Ideal)) (onTc (τ := τ) (main (F := Ideal))) (s₀ m ρ) (RunPost m)) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨((h c).1 0).trans (kept0 m c), ((h c).1 1).trans (kept1 m c)⟩) h

/-- The result buffer ends at the specification's mean loss, the tables as launched. -/
theorem run_value_of (h : θ_run (defs (F := Ideal)) (onTc (τ := τ) (main (F := Ideal))) (s₀ m ρ) (RunPost m)) :
    θ_run (defs (F := Ideal)) (onTc (τ := τ) (main (F := Ideal))) ⟨m, fun _ => 0, ρ⟩ (fun r => ∀ c : Dev nD,
      r.2.mem ((c.tc : Thread nD τ).loc main_v3) = (fun _ => refLoss (L m c) (X m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨((h c).2 main_v3 v3_rest).trans (result m c), ((h c).1 0).trans (kept0 m c), ((h c).1 1).trans (kept1 m c)⟩) h

end Cert.ReferenceIdeal.Value'

end
-- ==== Proof.RefResult.lean ====
/-
  The reference program's frame and result: every weakly fair execution terminates without a fault, both tables end
  as launched, and the result buffer ends at the specification's mean loss of the two tables.
-/
import proofs.«152175_g2000206405548727_pallasbulk_867_2_alg».proof.Proof.RefRun
import proofs.«152175_g2000206405548727_pallasbulk_867_2_alg».proof.Proof.RefEnd

set_option maxRecDepth 16384

noncomputable section

namespace Cert.ReferenceIdeal.Value'

open Cert.ReferenceIdeal Cert.ReferenceIdeal.Gen Cert.ReferenceIdeal.Body
open Idealize.ShloMosaic Idealize.ShloMosaic.TcCoe Idealize.SL.Sem Idealize.ShloMosaic.ValueIdx
open Idealize.ShloMosaic.Pipeline (Dat)
open Cert.T2TLoss
open Idealize.ShloMosaic.StableHlo

variable (m : (ℓ : Loc nD τ sig) → Buf (Elt Ideal) ℓ)

variable (ρ : Dev nD → PrngReg)

/-- The frame: the program runs to the end and leaves both tables as it found them. -/
theorem frame : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (run_main m ρ)

/-- The value: the result buffer ends at the specification's mean loss, the tables as launched. -/
theorem run_value : θ_run (defs (F := Ideal)) (onTc (τ := τ) (main (F := Ideal))) ⟨m, fun _ => 0, ρ⟩ (fun r => ∀ c : Dev nD,
      r.2.mem ((c.tc : Thread nD τ).loc main_v3) = (fun _ => refLoss (L m c) (X m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of m ρ (run_main m ρ)

end Cert.ReferenceIdeal.Value'

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.FiniteInputs.lean ====
/-
  The finiteness precondition read back: when the predicate "every entry of the first array has |a| < +∞ and
  every entry of the second array has |a| < +∞" evaluates to 1, every entry of both arrays is a real number.

  The predicate is the conjunction (an "and" of two one-bit words) of two reductions by "and", over both axes, of the
  comparison of |a| with the +∞ word. A conjunction that is 1 has both operands 1; a reduction by "and" that is 1 met a
  1 at every index; and |a| < +∞ on the extended reals says that a is neither infinity.
-/
import proofs.«152175_g2000206405548727_pallasbulk_867_2_alg».proof.Pre_finite_inputs
import proofs.«152175_g2000206405548727_pallasbulk_867_2_alg».proof.Proof.Gen.Pre_finite_inputs
import proofs.«152175_g2000206405548727_pallasbulk_867_2_alg».proof.Proof.LibRealValued

noncomputable section

namespace Cert.T2TLoss

open Idealize.ShloMosaic Idealize.ShloMosaic.ValueIdx

/-- If the finiteness predicate of two arrays is 1, every entry of both is a real number. -/
theorem isReal_of_finite_inputs [Cert.Pre_finite_inputs.Facts]
    (a0 a1 : FVec Ideal Cert.Pre_finite_inputs.S2048x1024 .f32)
    (h : Cert.Pre_finite_inputs.fn (F := Ideal) a0 a1 = fun _ => 1#1) :
    (∀ i, Cert.RealValued.IsReal (a0 i)) ∧ (∀ i, Cert.RealValued.IsReal (a1 i)) := by
  have h0 := congrFun h ix0
  dsimp only [Cert.Pre_finite_inputs.fn] at h0
  replace h0 := IntOp.andi_eq_one.mp h0
  exact ⟨fun i => Cert.RealValued.all_isReal a0 _ _ _ _ h0.1 i,
    fun i => Cert.RealValued.all_isReal a1 _ _ _ _ h0.2 i⟩

end Cert.T2TLoss

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.LossLaw1.lean ====
/-
  The log-sum-exp identities behind the comparison of the two loss programs, over an arbitrary finite index range.

  For real numbers u(j), j in a nonempty finite range, and any real m,
      m + log (∑ j, exp (u j − m)) = log (∑ j, exp (u j)),
  because exp (u − m) = exp u · exp (−m), the factor exp (−m) comes out of the sum, the logarithm of a product of
  two positive numbers is the sum of the logarithms, and log (exp (−m)) = −m.

  On the extended reals the same identity holds when every u(j) is a real number: the maximum of finitely many
  real numbers, taken from −∞ over a nonempty range, is a real number; the exponential of a real number is a
  positive real number, a nonempty finite sum of positive real numbers is positive, and the logarithm of a
  positive real number is its real logarithm.

  The last lemma is the arithmetic that joins the two losses:  ½·A − 1·d + ½·B = ½·((A − d) + (B − d)) for real
  numbers A, B, d, with ½ and 1 the values of their f32 words.
-/
import Idealize.ShloMosaic.PureOps.Ideal
import Idealize.ShloMosaic.PureOps.Ideal.Laws
import Mathlib.Analysis.SpecialFunctions.Log.Basic
import proofs.«152175_g2000206405548727_pallasbulk_867_2_alg».proof.Proof.LossSpec
import proofs.«152175_g2000206405548727_pallasbulk_867_2_alg».proof.Proof.LibRealValued
import proofs.«152175_g2000206405548727_pallasbulk_867_2_alg».proof.Proof.LibRealSums

noncomputable section

namespace Cert.T2TLoss

open Idealize.ShloMosaic

/-- A nonempty finite sum of exponentials of real numbers is positive. -/
theorem sum_exp_pos {n : ℕ} (hn : 0 < n) (u : Fin n → ℝ) : 0 < ∑ j, Real.exp (u j) :=
  Finset.sum_pos (fun j _ => Real.exp_pos _) ⟨⟨0, hn⟩, Finset.mem_univ _⟩

/-- Taking any real number m out of a log-sum-exp first changes nothing. -/
theorem real_lse {n : ℕ} (hn : 0 < n) (u : Fin n → ℝ) (m : ℝ) :
    m + Real.log (∑ j, Real.exp (u j - m)) = Real.log (∑ j, Real.exp (u j)) := by
  have hpos := sum_exp_pos hn u
  have h1 : ∑ j, Real.exp (u j - m) = (∑ j, Real.exp (u j)) * Real.exp (-m) := by
    rw [Finset.sum_mul]
    refine Finset.sum_congr rfl fun j _ => ?_
    rw [sub_eq_add_neg, Real.exp_add]
  rw [h1, Real.log_mul hpos.ne' (Real.exp_pos _).ne', Real.log_exp]
  ring

/-- The logarithm of a nonempty sum of exponentials of real numbers is the real logarithm of the real sum. -/
theorem log_sum_exp_coe {n : ℕ} (hn : 0 < n) (u : Fin n → ℝ) :
    Ideal.log (∑ j : Fin n, Ideal.exp (u j : EReal)) = ((Real.log (∑ j, Real.exp (u j)) : ℝ) : EReal) := by
  have hpos := sum_exp_pos hn u
  simp only [Ideal.exp_coe]
  rw [← Cert.RealSums.coe_sum, Ideal.log_coe, if_neg (not_le.mpr hpos)]

/-- A maximum of real numbers taken from −∞ is −∞ (over the empty range) or a real number. -/
theorem fold_max_cases {ι : Type} [DecidableEq ι] (s : Finset ι) (f : ι → ℝ) :
    s.fold max negInf (fun i => (f i : EReal)) = negInf
      ∨ ∃ m : ℝ, s.fold max negInf (fun i => (f i : EReal)) = (m : EReal) := by
  induction s using Finset.induction_on with
  | empty => left; exact Finset.fold_empty
  | insert a s ha ih =>
    right
    rw [Finset.fold_insert ha]
    rcases ih with h | ⟨m, h⟩
    · rw [h, Cert.RealValued.max_negInf_right]; exact ⟨f a, rfl⟩
    · rw [h]; exact Cert.RealSums.max_real ⟨f a, rfl⟩ ⟨m, rfl⟩

/-- Over a nonempty range it is a real number. -/
theorem fold_max_real {n : ℕ} (hn : 0 < n) (u : Fin n → ℝ) :
    ∃ m : ℝ, (Finset.univ : Finset (Fin n)).fold max negInf (fun j => (u j : EReal)) = (m : EReal) := by
  classical
  have hu : (Finset.univ : Finset (Fin n)) = insert ⟨0, hn⟩ (Finset.univ.erase ⟨0, hn⟩) :=
    (Finset.insert_erase (Finset.mem_univ _)).symm
  rw [hu, Finset.fold_insert (Finset.notMem_erase _ _)]
  rcases fold_max_cases (Finset.univ.erase (⟨0, hn⟩ : Fin n)) u with h | ⟨m, h⟩
  · rw [h, Cert.RealValued.max_negInf_right]; exact ⟨_, rfl⟩
  · rw [h]; exact Cert.RealSums.max_real ⟨_, rfl⟩ ⟨m, rfl⟩

/-- The log-sum-exp with the maximum taken out first, of a nonempty row of real numbers, is the real logarithm of
    the real sum of exponentials. -/
theorem lse_coe {n : ℕ} (hn : 0 < n) (u : Fin n → ℝ) :
    (Finset.univ : Finset (Fin n)).fold max negInf (fun j => (u j : EReal))
      + Ideal.log (∑ j : Fin n, Ideal.exp ((u j : EReal)
          - (Finset.univ : Finset (Fin n)).fold max negInf (fun j => (u j : EReal))))
      = ((Real.log (∑ j, Real.exp (u j)) : ℝ) : EReal) := by
  obtain ⟨m, hm⟩ := fold_max_real hn u
  rw [hm]
  have hsub : ∀ j, (u j : EReal) - (m : EReal) = ((u j - m : ℝ) : EReal) := fun j => (EReal.coe_sub _ _).symm
  simp only [hsub]
  rw [log_sum_exp_coe hn (fun j => u j - m), ← EReal.coe_add, real_lse hn u m]

/-- The f32 word 0x3F000000 is one half. -/
theorem half_eq : half = ((1 / 2 : ℝ) : EReal) := by
  simp [half, Ideal.ofBits, Ideal.ieee]
  norm_cast
  norm_num

/-- The f32 word 0x3F800000 is one. -/
theorem one_eq : one = ((1 : ℝ) : EReal) := by
  simp [one, Ideal.ofBits, Ideal.ieee]
  norm_cast
  norm_num

/-- The scale word is a real number. -/
theorem sc_isReal : Cert.RealValued.IsReal sc :=
  Cert.RealValued.ieee_isReal 8 23 (0x41649249#32) (by decide)

/-- ½·A − 1·d + ½·B = ½·((A − d) + (B − d)) for real numbers. -/
theorem combine (A B d : ℝ) :
    half * (A : EReal) - one * (d : EReal) + half * (B : EReal)
      = half * (((A : EReal) - (d : EReal)) + ((B : EReal) - (d : EReal))) := by
  rw [half_eq, one_eq]
  simp only [← EReal.coe_mul, ← EReal.coe_sub, ← EReal.coe_add]
  exact congrArg _ (by ring)

end Cert.T2TLoss

end
-- ==== Proof.LossLaw.lean ====
/-
  The kernel's loss and the reference's loss of two tables of real numbers are the same extended real.

  When every entry of the two tables is a real number (and so is the scale word), every similarity
  s(r, j) = ∑ k, (L(r,k)·c)·X(j,k) is the coercion of a real sum, and the similarity computed from the other
  table's row, sT(r, j) = ∑ k, (X(r,k)·c)·L(j,k), is s(j, r) by commutativity of the real product.

  The kernel's column sum, accumulated block by block onto a zero, is the whole column sum ∑ i, exp s(i, r): four
  chunks of 512 make the 2048 rows. Both log-sum-exps of the reference are real logarithms of real sums of
  exponentials (taking the maximum out first changes nothing over the reals), and so are the kernel's two
  logarithms; the row sum is ∑ j, exp s(r, j) and the column sum ∑ i, exp s(i, r) on both sides. What is left is
  ½·A − 1·d + ½·B = ½·((A − d) + (B − d)) over the reals.
-/
import proofs.«152175_g2000206405548727_pallasbulk_867_2_alg».proof.Proof.LossLaw1

noncomputable section

namespace Cert.T2TLoss

open Idealize.ShloMosaic

/-- The similarity over the reals. -/
def simR (l x : Fin 2048 → Fin 1024 → ℝ) (c : ℝ) (r j : Fin 2048) : ℝ := ∑ k : Fin 1024, (l r k * c) * x j k

/-- The column sum accumulated block by block onto a zero is the whole column sum. -/
theorem colsum_eq (L X : Tab) (j : Fin 2048) : colsum L X j = ∑ i : Fin 2048, Ideal.exp (sim L X i j) := by
  have h := ChunkSum.sum_chunks (by norm_num : 4 * 512 = 2048) (fun i : Fin 2048 => Ideal.exp (sim L X i j))
  rw [Fin.sum_univ_four] at h
  rw [← h]
  unfold colsum
  rw [show (zero : EReal) = 0 from Ideal.ofBits_zero_f32, zero_add]
  rfl

section Reals

variable (L X : Tab) (l x : Fin 2048 → Fin 1024 → ℝ) (c : ℝ)
  (hl : ∀ r k, L r k = (l r k : EReal)) (hx : ∀ r k, X r k = (x r k : EReal)) (hc : sc = (c : EReal))

include hl hx hc

/-- A similarity of real tables is the coercion of the real similarity. -/
theorem sim_coe (r j : Fin 2048) : sim L X r j = ((simR l x c r j : ℝ) : EReal) := by
  unfold sim simR
  rw [Cert.RealSums.coe_sum]
  refine Finset.sum_congr rfl fun k _ => ?_
  rw [hl, hx, hc, EReal.coe_mul, EReal.coe_mul]

/-- The similarity computed from the other table's row is the transposed real similarity. -/
theorem simT_coe (r j : Fin 2048) : simT L X r j = ((simR l x c j r : ℝ) : EReal) := by
  unfold simT simR
  rw [Cert.RealSums.coe_sum]
  refine Finset.sum_congr rfl fun k _ => ?_
  rw [hl, hx, hc, ← EReal.coe_mul, ← EReal.coe_mul]
  exact congrArg _ (by ring)

/-- The diagonal term is the real similarity of a row with itself. -/
theorem diag_coe (r : Fin 2048) : diag L X r = ((simR l x c r r : ℝ) : EReal) :=
  sim_coe L X l x c hl hx hc r r

/-- The two losses of class r agree, for tables given by real witnesses. -/
theorem kernelRow_eq_refRow_of (r : Fin 2048) : kernelRow L X r = refRow L X r := by
  have hs := sim_coe L X l x c hl hx hc
  have hsT := simT_coe L X l x c hl hx hc
  have hd := diag_coe L X l x c hl hx hc r
  have h2048 : 0 < 2048 := by norm_num
  have e1 : Ideal.log (∑ j : Fin 2048, Ideal.exp (sim L X r j))
      = ((Real.log (∑ j, Real.exp (simR l x c r j)) : ℝ) : EReal) := by
    simp only [hs]
    exact log_sum_exp_coe h2048 (fun j => simR l x c r j)
  have e2 : Ideal.log (colsum L X r) = ((Real.log (∑ i, Real.exp (simR l x c i r)) : ℝ) : EReal) := by
    rw [colsum_eq]
    simp only [hs]
    exact log_sum_exp_coe h2048 (fun i => simR l x c i r)
  have e3 : lse (sim L X r) = ((Real.log (∑ j, Real.exp (simR l x c r j)) : ℝ) : EReal) := by
    have hf : sim L X r = fun j => ((simR l x c r j : ℝ) : EReal) := funext (hs r)
    rw [hf]
    exact lse_coe h2048 (fun j => simR l x c r j)
  have e4 : lse (simT L X r) = ((Real.log (∑ i, Real.exp (simR l x c i r)) : ℝ) : EReal) := by
    have hf : simT L X r = fun i => ((simR l x c i r : ℝ) : EReal) := funext (hsT r)
    rw [hf]
    exact lse_coe h2048 (fun i => simR l x c i r)
  unfold kernelRow refRow rowPart
  rw [e1, e2, e3, e4, hd]
  exact combine _ _ _

end Reals

/-- The kernel's loss of class r is the reference's, for tables of real numbers. -/
theorem kernelRow_eq_refRow (L X : Tab) (hL : ∀ r k, Cert.RealValued.IsReal (L r k))
    (hX : ∀ r k, Cert.RealValued.IsReal (X r k)) (r : Fin 2048) : kernelRow L X r = refRow L X r := by
  choose l hl using hL
  choose x hx using hX
  obtain ⟨c, hc⟩ := sc_isReal
  exact kernelRow_eq_refRow_of L X l x c hl hx hc r

/-- The kernel's result is the reference's, for tables of real numbers. -/
theorem kernelLoss_eq_refLoss (L X : Tab) (hL : ∀ r k, Cert.RealValued.IsReal (L r k))
    (hX : ∀ r k, Cert.RealValued.IsReal (X r k)) : kernelLoss L X = refLoss L X := by
  unfold kernelLoss refLoss
  rw [Finset.sum_congr rfl fun r _ => kernelRow_eq_refRow L X hL hX r]

end Cert.T2TLoss

end
-- ==== Proof.lean ====
/-
  The certificate of the symmetric contrastive loss kernel against its reference.

  Both programs take two [2048, 1024] tables and return the mean over the 2048 classes of a per-class loss. With
  s(r, j) = ∑ k, (L(r,k)·c)·X(j,k) and d(r) = s(r, r) (c the f32 word of 1/0.07), the kernel returns the mean of
      ½·log(∑ j, exp s(r,j)) − d(r) + ½·log(∑ i, exp s(i,r)),
  the column sums accumulated over four blocks of 512 rows; the reference returns the mean of
      ½·((lse s(r,·) − d(r)) + (lse sT(r,·) − d(r))),
  each log-sum-exp taken with the row maximum subtracted first and sT computed from the other table's scaled row.
  For tables of real numbers these are one number: sT(r, j) = s(j, r) by commutativity, subtracting the maximum does
  not change a log-sum-exp, a block-wise sum is the whole sum, and the one half distributes over the sum — the last
  steps are laws of the real numbers that fail at an infinity, which is where the precondition (every entry finite)
  is used.

  Each program runs a kernel region whose windows share arrays (the second table reaches the kernel's body both as a
  block of rows and whole; the reference's body takes each table both ways), so each region is launched with the
  shared buffer's share dealt to its two windows by halves, and the host lines after it run on the buffers whole
  again. The three frames, the idealization (no rewrite was applied: trivially sanctioned) and the equality of the
  two results follow from the programs' runs.
-/
import proofs.«152175_g2000206405548727_pallasbulk_867_2_alg».proof.Defs
import proofs.«152175_g2000206405548727_pallasbulk_867_2_alg».proof.Proof.BitsFrame
import proofs.«152175_g2000206405548727_pallasbulk_867_2_alg».proof.Proof.IdealResult
import proofs.«152175_g2000206405548727_pallasbulk_867_2_alg».proof.Proof.RefResult
import proofs.«152175_g2000206405548727_pallasbulk_867_2_alg».proof.Proof.FiniteInputs
import proofs.«152175_g2000206405548727_pallasbulk_867_2_alg».proof.Proof.LossLaw

noncomputable section

namespace Cert.Proof

open Idealize.ShloMosaic Idealize.SL.Sem Idealize.ShloMosaic.ValueIdx

/-- The word-level kernel program runs and leaves its arguments unchanged. -/
theorem frame_k : Cert.frame_Kernel := fun m ρ _ => Cert.Kernel.Body.frame m ρ

/-- So does its idealization, -/
theorem frame_ki : Cert.frame_KernelIdeal := fun m ρ _ => Cert.KernelIdeal.Body.frame m ρ

/-- and the idealized reference. -/
theorem frame_ri : Cert.frame_ReferenceIdeal := fun m ρ _ => Cert.ReferenceIdeal.Value'.frame m ρ

/-- The idealization rewrote nothing. -/
theorem preserves : Cert.preserves_Kernel_KernelIdeal := trivial

/-- From memories agreeing on the two tables, both idealized programs return the same loss: the kernel's, which for
    finite tables is the reference's. -/
theorem algebraic : Cert.algebraic_KernelIdeal_ReferenceIdeal := by
  intro m ρ m' ρ' hpre hagree
  refine ⟨fun c => Cert.KernelIdeal.Body.resK m c, Cert.KernelIdeal.Body.run_value m ρ, ?_⟩
  refine (θ_run Cert.ReferenceIdeal.defs _ _).mono (fun r h c => ⟨(h c).1.trans ?_, (h c).2⟩)
    (Cert.ReferenceIdeal.Value'.run_value m' ρ')
  obtain ⟨hL, hX⟩ := Cert.T2TLoss.isReal_of_finite_inputs _ _ (hpre c)
  have eL : Cert.ReferenceIdeal.Value'.L m' c = Cert.KernelIdeal.Value'.Lt m c := by
    funext r k
    exact congrFun (hagree c).1 (ix2 r k)
  have eX : Cert.ReferenceIdeal.Value'.X m' c = Cert.KernelIdeal.Value'.Xt m c := by
    funext r k
    exact congrFun (hagree c).2 (ix2 r k)
  funext _
  show Cert.T2TLoss.refLoss _ _ = Cert.T2TLoss.kernelLoss _ _
  rw [eL, eX]
  exact (Cert.T2TLoss.kernelLoss_eq_refLoss _ _ (fun r k => hL (ix2 r k)) (fun r k => hX (ix2 r k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
